-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel

variable [Facts]

def fn {F : FTy → Type} [FloatOps F] (main_arg0 : FVec F S8x16x512x512 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  main_v3
-- ==== Kernel.lean ====
abbrev S8x16x512x512 : Shape := ⟨4, ![8, 16, 512, 512]⟩
abbrev S128x512x512 : Shape := ⟨3, ![128, 512, 512]⟩
abbrev S16x128 : Shape := ⟨2, ![16, 128]⟩
abbrev S16x512x512 : Shape := ⟨3, ![16, 512, 512]⟩
abbrev S8x128 : Shape := ⟨2, ![8, 128]⟩
abbrev S1x1 : Shape := ⟨2, ![1, 1]⟩
abbrev S1x512x512 : Shape := ⟨3, ![1, 512, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1 : Shape := ⟨1, ![1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S8x16x512x512, .f32⟩
  | .hbm, ⟨1, _⟩ => ⟨S128x512x512, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16x512x512, .f32⟩
  | .local _ .vmem, ⟨1, _⟩ => ⟨S16x512x512, .f32⟩
  | .local _ .vmem, ⟨2, _⟩ => ⟨S8x128, .f32⟩
  | .local _ .vmem, ⟨3, _⟩ => ⟨S8x128, .f32⟩
  | .local _ .vmem, ⟨4, _⟩ => ⟨S1x1, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_5 : BitVec 32 := 0#32
  let c0_i32_1 : BitVec 32 := 0#32
  let c1_i32 : BitVec 32 := 1#32
  let arg5 : BitVec 32 := Scf.iv c0_i32_1 c1_i32 k0_t1
  let c1_i32_4 : BitVec 32 := 1#32
  let v7 : BitVec 32 := Scalar.muli arg5 c1_i32_4
  let v8 : BitVec 32 := Scalar.addi c0_i32_5 v7
  let v9 : Index := Scalar.indexCast v8
  let c0 : Index := 0#32
  let c0_6 : Index := 0#32
  ![v9.toNat, 0, 0]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S8x16x512x512_S128x512x512 : S8x16x512x512.ShapeCasts S128x512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x512x512 : 0 < S1x512x512.numel
  shapeCasts_S1x512x512_S512x512 : S1x512x512.ShapeCasts S512x512
  rotates_S512x512_d1 : S512x512.Rotates 1 none
  iota_S512x512_d1_w32 : S512x512.Iotas .tc 32 [1]
  slices_S512x512_o0_0_S512x1 : S512x512.Slices ![0, 0] S512x1
  shapeCasts_S512x1_S512x1 : S512x1.ShapeCasts S512x1
  broadcasts_S512x1_S512x512 : S512x1.Broadcasts S512x512
  rotates_S512x512_d0 : S512x512.Rotates 0 none
  iota_S512x512_d0_w32 : S512x512.Iotas .tc 32 [0]
  slices_S512x512_o0_0_S1x512 : S512x512.Slices ![0, 0] S1x512
  shapeCasts_S1x512_S1x512 : S1x512.ShapeCasts S1x512
  broadcasts_S1x512_S512x512 : S1x512.Broadcasts S512x512
  slices_S512x512_o0_511_S512x1 : S512x512.Slices ![0, 511] S512x1
  slices_S512x512_o511_0_S1x512 : S512x512.Slices ![511, 0] S1x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  k0_t1_ok : k0_t1_loop.OK
  k0_off1_inb : ∀ k0_t1 : Fin k0_t1_loop.trips, ∀ a, (k0_off1 k0_t1) a + S1x512x512.size a ≤ S16x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x512.size a ≤ S128x512x512.size a
  hwx0_0 : ∀ i : grid0.Coords, EltTy.bits .f32 = 32 ∨ (Rect.block (s := S128x512x512) S16x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpec (Memref.whole main_v0) S16x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x16x512x512 : Shape := ⟨4, ![8, 16, 512, 512]⟩
abbrev S_ : Shape := ⟨0, ![]⟩
abbrev S8x16x1x512 : Shape := ⟨4, ![8, 16, 1, 512]⟩
abbrev S8x16x513x512 : Shape := ⟨4, ![8, 16, 513, 512]⟩
abbrev S8x16x513x1 : Shape := ⟨4, ![8, 16, 513, 1]⟩
abbrev S8x16x513x513 : Shape := ⟨4, ![8, 16, 513, 513]⟩

abbrev nBuf : Space → Nat
  | .hbm => 33
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S_, .i32⟩
  | .hbm, ⟨2, _⟩ => ⟨S8x16x1x512, .f32⟩
  | .hbm, ⟨3, _⟩ => ⟨S8x16x1x512, .f32⟩
  | .hbm, ⟨4, _⟩ => ⟨S8x16x1x512, .f32⟩
  | .hbm, ⟨5, _⟩ => ⟨S8x16x513x512, .f32⟩
  | .hbm, ⟨6, _⟩ => ⟨S8x16x1x512, .f32⟩
  | .hbm, ⟨7, _⟩ => ⟨S8x16x513x1, .f32⟩
  | .hbm, ⟨8, _⟩ => ⟨S8x16x513x1, .f32⟩
  | .hbm, ⟨9, _⟩ => ⟨S8x16x513x1, .f32⟩
  | .hbm, ⟨10, _⟩ => ⟨S8x16x513x513, .f32⟩
  | .hbm, ⟨11, _⟩ => ⟨S8x16x513x1, .f32⟩
  | .hbm, ⟨12, _⟩ => ⟨S_, .f32⟩
  | .hbm, ⟨13, _⟩ => ⟨S8x16x512x512, .f32⟩
  | .hbm, ⟨14, _⟩ => ⟨S_, .i32⟩
  | .hbm, ⟨15, _⟩ => ⟨S8x16x1x512, .f32⟩
  | .hbm, ⟨16, _⟩ => ⟨S8x16x1x512, .f32⟩
  | .hbm, ⟨17, _⟩ => ⟨S8x16x1x512, .f32⟩
  | .hbm, ⟨18, _⟩ => ⟨S8x16x1x512, .f32⟩
  | .hbm, ⟨19, _⟩ => ⟨S8x16x513x512, .f32⟩
  | .hbm, ⟨20, _⟩ => ⟨S8x16x513x1, .f32⟩
  | .hbm, ⟨21, _⟩ => ⟨S8x16x513x1, .f32⟩
  | .hbm, ⟨22, _⟩ => ⟨S8x16x513x1, .f32⟩
  | .hbm, ⟨23, _⟩ => ⟨S8x16x513x1, .f32⟩
  | .hbm, ⟨24, _⟩ => ⟨S8x16x513x513, .f32⟩
  | .hbm, ⟨25, _⟩ => ⟨S_, .f32⟩
  | .hbm, ⟨26, _⟩ => ⟨S8x16x512x512, .f32⟩
  | .hbm, ⟨27, _⟩ => ⟨S8x16x512x512, .f32⟩
  | .hbm, ⟨28, _⟩ => ⟨S8x16x512x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_v0 : Ref sig .tc := ⟨.hbm, 10, rfl⟩
abbrev main_call0_v9 : Ref sig .tc := ⟨.hbm, 11, rfl⟩
abbrev main_cst : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_cst_3 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  slices_S8x16x512x512_S8x16x1x512_0_0_0_0 : S8x16x512x512.Slices ![0, 0, 0, 0] S8x16x1x512
  concatenates_S8x16x1x512_S8x16x512x512_S8x16x513x512_d2 : Shape.Concatenates [S8x16x1x512, S8x16x512x512] S8x16x513x512 2
  slices_S8x16x513x512_S8x16x1x512_0_0_512_0 : S8x16x513x512.Slices ![0, 0, 512, 0] S8x16x1x512
  slices_S8x16x513x512_S8x16x513x1_0_0_0_0 : S8x16x513x512.Slices ![0, 0, 0, 0] S8x16x513x1
  concatenates_S8x16x513x1_S8x16x513x512_S8x16x513x513_d3 : Shape.Concatenates [S8x16x513x1, S8x16x513x512] S8x16x513x513 3
  slices_S8x16x513x513_S8x16x513x1_0_0_0_512 : S8x16x513x513.Slices ![0, 0, 0, 512] S8x16x513x1
  reduceWindows_S8x16x513x513_S8x16x512x512_w1s1p0_0_w1s1p0_0_w2s1p0_0_w2s1p0_0 : S8x16x513x513.ReduceWindows (![1, 1, 2, 2] : Fin 4 → Nat) ![1, 1, 1, 1] ![0, 0, 0, 0] ![0, 0, 0, 0] S8x16x512x512
  h_S_ : 0 < S_.numel
  slices_S8x16x512x512_S8x16x1x512_0_0_511_0 : S8x16x512x512.Slices ![0, 0, 511, 0] S8x16x1x512
  concatenates_S8x16x512x512_S8x16x1x512_S8x16x513x512_d2 : Shape.Concatenates [S8x16x512x512, S8x16x1x512] S8x16x513x512 2
  slices_S8x16x513x512_S8x16x513x1_0_0_0_511 : S8x16x513x512.Slices ![0, 0, 0, 511] S8x16x513x1
  concatenates_S8x16x513x512_S8x16x513x1_S8x16x513x513_d3 : Shape.Concatenates [S8x16x513x512, S8x16x513x1] S8x16x513x513 3
  reducesTo_S8x16x512x512_S_d0_1_2_3 : S8x16x512x512.ReducesTo [0, 1, 2, 3] S_

variable [Facts₀]

class Facts : Prop extends Facts₀ where

variable [Facts]
-- ==== Proof.Spec.lean ====
/-
  The mathematics both programs compute, stated once over the argument array and over no program.

  An image is a 512 × 512 array of extended reals. Its EROSION at (i, j) is the minimum over the 2 × 2 window
  {i − 1, i} × {j − 1, j}, its DILATION the maximum over {i, i + 1} × {j, j + 1}, an index that would leave the image
  replaced by the nearest one inside (the edge sample repeated). The OPENING is the dilation of the erosion; an
  image's loss is the sum over its entries of the squared difference between the image and its opening; the result
  is the sum of the 128 images' losses times 2⁻²⁵ (the mean over the 8 · 16 · 512 · 512 = 2²⁵ entries).
-/
import Idealize.ShloMosaic.PureOps.Ideal
import Idealize.ShloMosaic.Lib.ValueIdx

noncomputable section

open scoped BigOperators

namespace Cert.Opening

open Idealize.ShloMosaic Idealize.ShloMosaic.ValueIdx

/-- An image: 512 rows of 512 entries. -/
abbrev Img := Fin 512 → Fin 512 → EReal

/-- The row (column) before, the first one repeated. -/
def prev (i : Fin 512) : Fin 512 := ⟨i.val - 1, by omega⟩

/-- The row (column) after, the last one repeated. -/
def next (i : Fin 512) : Fin 512 := ⟨min (i.val + 1) 511, by omega⟩

/-- Erosion: the minimum over the window {i − 1, i} × {j − 1, j}, along the columns first and then along the rows. -/
def ero (X : Img) : Img := fun i j =>
  min (min (X i j) (X i (prev j))) (min (X (prev i) j) (X (prev i) (prev j)))

/-- Dilation: the maximum over the window {i, i + 1} × {j, j + 1}, along the columns first and then along the rows. -/
def dil (E : Img) : Img := fun i j =>
  max (max (E i j) (E i (next j))) (max (E (next i) j) (E (next i) (next j)))

/-- The squared difference between an image and its opening, at one entry. -/
def sqd (X : Img) (i j : Fin 512) : EReal :=
  (X i j - dil (ero X) i j) * (X i j - dil (ero X) i j)

/-- One row's sum of squared differences. -/
def rowLoss (X : Img) (i : Fin 512) : EReal := ∑ j : Fin 512, sqd X i j

/-- One image's sum of squared differences. -/
def imgLoss (X : Img) : EReal := ∑ i : Fin 512, rowLoss X i

/-- The argument array: 8 × 16 images. -/
abbrev Arr := (⟨4, ![8, 16, 512, 512]⟩ : Shape).Idx → EReal

/-- Image `n` of the 128, in row-major order of the two leading axes: n = 16 · b + c. -/
def image (A : Arr) (n : Fin 128) : Img := fun i j =>
  A (ix4 (⟨n.val / 16, by omega⟩ : Fin 8) (⟨n.val % 16, by omega⟩ : Fin 16) i j)

/-- The sum of all 128 images' losses. -/
def total (A : Arr) : EReal := ∑ n : Fin 128, imgLoss (image A n)

/-- The result: the total times 2⁻²⁵ = 1 / 33554432. -/
def result (A : Arr) : EReal := total A * ((1 / 33554432 : ℝ) : EReal)

end Cert.Opening

end
-- ==== Proof.KLoop.lean ====
/-
  The accumulation loop of one grid point, read as a value.

  One trip of the loop takes image `k` of the point's block of sixteen images, forms the column of its row sums
  of squared differences, adds the column's total to the one-entry accumulator and stores it back. So after `k`
  trips the accumulator holds what it held at loop entry plus the losses of the block's first `k` images.
-/
import proofs.«101267_j61349312856565_2_alg».proof.Proof.Gen.KernelIdeal.Frame
import proofs.«101267_j61349312856565_2_alg».proof.Proof.Spec
import Idealize.ShloMosaic.Lib.ValueIdx
import Idealize.ShloMosaic.Lib.Pipeline.Value

set_option maxRecDepth 16384

noncomputable section

namespace Cert.KernelIdeal.KLoop

open Idealize.ShloMosaic Idealize.ShloMosaic.TcCoe Idealize.ShloMosaic.ValueIdx
open Idealize.SL.Sem
open Cert.KernelIdeal Cert.KernelIdeal.Gen

variable {F : FTy → Type} [FloatOps F]

/-- The loop makes sixteen trips. -/
theorem trips_eq : k0_t1_loop.trips = 16 := by decide

/-- What one trip stores: through the accumulator's whole rectangle, the accumulator it finds plus the total of
    the row sums of image `k` of the block. -/
theorem tripL_eq (c : Dev nD) (i : grid0.Coords) (arg2 : Memref sig .tc .vmem S16x512x512 .f32) (harg2 : arg2.IsWhole)
    (arg3 : Memref sig .tc .vmem S8x128 .f32) (harg3 : arg3.IsWhole) (arg4 : Memref sig .tc .vmem S1x1 .f32) (harg4 : arg4.IsWhole)
    (X : BufTy.Contents (Elt F) arg2.view.ty) (k : Fin k0_t1_loop.trips) (f : BufTy.Contents (Elt F) arg4.view.ty) :
    tripL_k0_t1 (F := F) Variants.none c none i arg2 harg2 arg3 harg3 arg4 harg4 X k f
      = [⟨Rect.unit (s := S1x1) ![0, 0] S1x1.size Gen.inb_S1x1_S1x1_0_0,
          k0_pay2 (k0_pay4 (View.readAt (Elt F) arg2.view (Rect.unit (s := S16x512x512) (k0_off1 k) S1x512x512.size (Gen.k0_off1_inb k)).toLoadRect X))
            (View.readAt (Elt F) arg4.view (Rect.unit (s := S1x1) ![0, 0] S1x1.size Gen.inb_S1x1_S1x1_0_0).toLoadRect f)⟩] := by
  unfold tripL_k0_t1 trip_k0_t1
  rfl

/-! ## After `k` trips, at the ideal values -/

/-- Image `n` (taken modulo sixteen) of a block of sixteen images. -/
def imgOf (x0 : Vec Ideal S16x512x512 .f32) (n : ℕ) : Cert.Opening.Img :=
  fun i j => x0 (ix3 (⟨n % 16, Nat.mod_lt _ (by decide)⟩ : Fin 16) i j)

/-- The accumulator's whole rectangle starts at the origin. -/
theorem hz : (![0, 0] : Fin S1x1.rank → ℕ) = fun _ => 0 := by
  funext a; match a with | ⟨0, _⟩ => rfl | ⟨1, _⟩ => rfl

/-- The accumulator's one index. -/
abbrev z : S1x1.Idx := ix2 (0 : Fin 1) (0 : Fin 1)

/-- The payload reads the accumulation rests on: the store of a trip is the accumulator found plus the total of a
    column, and the column built from an image is the column of its row losses. -/
structure PayReads : Prop where
  add_total : ∀ (v51 : FVec Ideal S512x1 .f32) (v54 : Vec Ideal S1x1 .f32),
    k0_pay2 (F := Ideal) v51 v54 z = v54 z + ∑ r : Fin 512, v51 (ix2 r (0 : Fin 1))
  row_loss : ∀ (v10 : Vec Ideal S1x512x512 .f32) (r : Fin 512),
    k0_pay4 (F := Ideal) v10 (ix2 r (0 : Fin 1)) = Cert.Opening.rowLoss (fun i j => v10 (ix3 (0 : Fin 1) i j)) r

/-- The load of trip `k` reads image `k` of the block. -/
theorem load_trip (x0 : Vec Ideal S16x512x512 .f32) (k : Fin k0_t1_loop.trips) (i j : Fin 512) :
    View.ld x0 (Rect.unit (s := S16x512x512) (k0_off1 k) S1x512x512.size (Gen.k0_off1_inb k)) (ix3 (0 : Fin 1) i j)
      = imgOf x0 k.val i j := by
  have hk : k.val < 16 := lt_of_lt_of_eq k.isLt trips_eq
  show x0 _ = x0 _
  refine congrArg x0 (funext fun a => Fin.ext ?_)
  show (k0_off1 k) a + 1 * (ix3 (0 : Fin 1) i j a).val = (ix3 (⟨k.val % 16, _⟩ : Fin 16) i j a).val
  rw [Gen.k0_off1_eq k]
  match a with
  | ⟨0, _⟩ => show k.val + 1 * 0 = k.val % 16; rw [Nat.mod_eq_of_lt hk]; omega
  | ⟨1, _⟩ => show 0 + 1 * i.val = i.val; omega
  | ⟨2, _⟩ => show 0 + 1 * j.val = j.val; omega

/-- AFTER `k` TRIPS the accumulator holds what it held at loop entry plus the losses of the block's first `k` images. -/
theorem read_after_trips (hp : PayReads) (c : Dev nD) (i : grid0.Coords) (arg2 : Memref sig .tc .vmem S16x512x512 .f32) (harg2 : arg2.IsWhole)
    (arg3 : Memref sig .tc .vmem S8x128 .f32) (harg3 : arg3.IsWhole) (arg4 : Memref sig .tc .vmem S1x1 .f32) (harg4 : arg4.IsWhole)
    (x0 : Vec Ideal S16x512x512 .f32) (G : BufTy.Contents (Elt Ideal) arg4.view.ty) :
    ∀ k : ℕ, k ≤ 16 →
      arg4.view.read (Elt Ideal) (arg4.view.writes (Elt Ideal) G
          (pb_k0_t1 (F := Ideal) Variants.none c none i arg2 harg2 arg3 harg3 arg4 harg4 (harg2.unread x0) G k)) z
        = arg4.view.read (Elt Ideal) G z + ∑ n ∈ Finset.range k, Cert.Opening.imgLoss (imgOf x0 n) := by
  intro k
  induction k with
  | zero =>
    intro _
    rw [Finset.range_zero, Finset.sum_empty, add_zero]; rfl
  | succ k ih' =>
    intro hk
    have ih := ih' (by omega)
    have hkt : k < k0_t1_loop.trips := by rw [trips_eq]; omega
    have e := pb_k0_t1_succ (F := Ideal) Variants.none c none i arg2 harg2 arg3 harg3 arg4 harg4 (harg2.unread x0) G ⟨k, hkt⟩
    simp only [Fin.val_mk] at e
    have key : (∑ r : Fin 512, k0_pay4 (F := Ideal) (View.readAt (Elt Ideal) arg2.view
          (Rect.unit (s := S16x512x512) (k0_off1 ⟨k, hkt⟩) S1x512x512.size (Gen.k0_off1_inb ⟨k, hkt⟩)).toLoadRect (harg2.unread x0)) (ix2 r (0 : Fin 1)))
        = Cert.Opening.imgLoss (imgOf x0 k) := by
      unfold Cert.Opening.imgLoss
      refine Finset.sum_congr rfl fun r _ => ?_
      rw [hp.row_loss]
      refine congrArg (fun X => Cert.Opening.rowLoss X r) (funext fun i' => funext fun j' => ?_)
      rw [View.readAt_eq_ld, harg2.read_unread]
      exact load_trip x0 ⟨k, hkt⟩ i' j'
    rw [e, tripL_eq, List.singleton_append]
    rw [View.read_writes_eq_canon _ _ _ (fun y => ⟨_, List.mem_cons_self, View.mem_set_unit_zero hz Gen.inb_S1x1_S1x1_0_0 y⟩),
      View.canon_cons_unit_zero hz]
    rw [hp.add_total, key, View.readAt_eq_ld, View.ld_unit_zero hz, ih, Finset.sum_range_succ, add_assoc]

end Cert.KernelIdeal.KLoop

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.PaySmall.lean ====
/-
  The kernel's three small stored values, read at an entry.

  The accumulator cell is started at zero; each image adds to it the sum of its 512 row sums; and at the end the
  8 × 128 result tile holds the accumulator in its corner entry (0, 0) and zero everywhere else.
-/
import Idealize.ShloMosaic.Lib.ValueLayout
import proofs.«101267_j61349312856565_2_alg».proof.Proof.Gen.KernelIdeal.Skeleton
import proofs.«101267_j61349312856565_2_alg».proof.Proof.LibColumn
import proofs.«101267_j61349312856565_2_alg».proof.Proof.LibMinAxis

noncomputable section

open scoped BigOperators

namespace Cert.KernelIdeal.Pay

open Idealize.ShloMosaic Idealize.ShloMosaic.ValueIdx

/-- The started accumulator cell is zero. -/
theorem pay1_apply : Gen.k0_pay1 (F := Ideal) (ix2 (0 : Fin 1) (0 : Fin 1)) = 0 := by
  unfold Gen.k0_pay1
  rw [shapeCast_self]
  exact Ideal.ofBits_zero_f32

/-- One image's update of the accumulator cell: the cell plus the sum of the image's 512 row sums. -/
theorem pay2_apply (v51 : FVec Ideal S512x1 .f32) (v54 : Vec Ideal S1x1 .f32) :
    Gen.k0_pay2 (F := Ideal) v51 v54 (ix2 (0 : Fin 1) (0 : Fin 1))
      = v54 (ix2 (0 : Fin 1) (0 : Fin 1)) + ∑ r : Fin 512, v51 (ix2 r (0 : Fin 1)) := by
  unfold Gen.k0_pay2
  dsimp only
  rw [shapeCast_self]
  refine congrArg (fun z : EReal => v54 (ix2 (0 : Fin 1) (0 : Fin 1)) + z) ?_
  refine (Cert.LibColumn.shapeCast_a_a1_apply _ _ (0 : Fin 1) (0 : Fin 1)).trans ?_
  exact Idealize.ShloMosaic.MinAxis.sum_first_apply v51 _ _ _ (0 : Fin 1)

/-- The bit of "a coordinate equals zero". -/
theorem cmpi_eq_zero_bit (n : ℕ) (hn : n < 4294967296) :
    IntOp.cmpi .eq (BitVec.ofNat 32 n) 0#32 = if n = 0 then 1#1 else 0#1 := by
  show BitVec.ofBool (BitVec.ofNat 32 n == 0#32) = _
  by_cases h : n = 0
  · subst h
    rfl
  · have hb : (BitVec.ofNat 32 n == 0#32) = false := beq_eq_false_iff_ne.2 fun e => h (by
      have h' := congrArg BitVec.toNat e
      rw [BitVec.toNat_ofNat] at h'
      have h0 : (0#32 : BitVec 32).toNat = 0 := rfl
      omega)
    rw [hb, if_neg h]
    rfl

/-- The result tile: the accumulator cell at entry (0, 0), zero elsewhere. -/
theorem pay3_apply (v14 : Vec Ideal S1x1 .f32) (r : Fin 8) (l : Fin 128) :
    Gen.k0_pay3 (F := Ideal) v14 (ix2 r l)
      = if r.val = 0 ∧ l.val = 0 then v14 (ix2 (0 : Fin 1) (0 : Fin 1)) else 0 := by
  unfold Gen.k0_pay3
  dsimp only
  rw [shapeCast_self]
  have e1 : iota .tc S8x128 32 [0] Gen.iota_S8x128_d0_w32 (ix2 r l) = BitVec.ofNat 32 r.val :=
    iota_single_apply .tc S8x128 32 0 Gen.iota_S8x128_d0_w32 (ix2 r l)
  have e2 : iota .tc S8x128 32 [1] Gen.iota_S8x128_d1_w32 (ix2 r l) = BitVec.ofNat 32 l.val :=
    iota_single_apply .tc S8x128 32 1 Gen.iota_S8x128_d1_w32 (ix2 r l)
  have e3 : broadcastTo S8x128 v14 Gen.broadcasts_S1x1_S8x128 (ix2 r l) = v14 (ix2 (0 : Fin 1) (0 : Fin 1)) := by
    refine broadcastTo_apply v14 Gen.broadcasts_S1x1_S8x128 (ix2 r l) (ix2 (0 : Fin 1) (0 : Fin 1)) fun a => ?_
    match a with
    | ⟨0, _⟩ => rfl
    | ⟨1, _⟩ => rfl
  show Scalar.select (IntOp.andi
        (IntOp.cmpi .eq (iota .tc S8x128 32 [0] Gen.iota_S8x128_d0_w32 (ix2 r l)) 0#32)
        (IntOp.cmpi .eq (iota .tc S8x128 32 [1] Gen.iota_S8x128_d1_w32 (ix2 r l)) 0#32))
      (broadcastTo S8x128 v14 Gen.broadcasts_S1x1_S8x128 (ix2 r l)) (Ideal.ofBits .f32 0x00000000#32) = _
  have hr := r.isLt
  have hl := l.isLt
  rw [e1, e2, e3, Ideal.ofBits_zero_f32, cmpi_eq_zero_bit r.val (by omega), cmpi_eq_zero_bit l.val (by omega)]
  by_cases h0 : r.val = 0
  · by_cases h1 : l.val = 0
    · rw [if_pos h0, if_pos h1, if_pos ⟨h0, h1⟩]
      exact if_pos (by decide)
    · rw [if_pos h0, if_neg h1, if_neg (fun h : r.val = 0 ∧ l.val = 0 => h1 h.2)]
      exact if_neg (by decide)
  · rw [if_neg h0, if_neg (fun h : r.val = 0 ∧ l.val = 0 => h0 h.1)]
    by_cases h1 : l.val = 0
    · rw [if_pos h1]
      exact if_neg (by decide)
    · rw [if_neg h1]
      exact if_neg (by decide)

end Cert.KernelIdeal.Pay

end
-- ==== Proof.PayShift.lean ====
/-
  The four shifts of a 512 × 512 array with the edge sample repeated, read at an entry.

  A rotation of the array by one place along an axis brings to each entry its neighbour on that axis, and to the first
  (or last) row or column the entry from the opposite edge.  Replacing, exactly there, the rotated array by the array's own
  first (or last) column or row laid across the whole array gives the neighbour with the edge sample repeated:
  the entry at the index before (Cert.Opening.prev) or after (Cert.Opening.next) on that axis.
-/
import Idealize.ShloMosaic.Lib.KernelVsHost
import Idealize.ShloMosaic.Lib.ValueLayout
import proofs.«101267_j61349312856565_2_alg».proof.Proof.LibColumn
import proofs.«101267_j61349312856565_2_alg».proof.Proof.Spec

noncomputable section

namespace Cert.KernelIdeal.Pay

open Idealize.ShloMosaic Idealize.ShloMosaic.ValueIdx Cert.Opening

variable {α : Type}

/-- A select on "the coordinate equals c", the coordinate and c both below 512, is the if-then-else on the coordinates. -/
theorem select_coord_eq (j : Fin 512) (c : ℕ) (hc : c < 512) (A B : α) :
    Scalar.select (IntOp.cmpi .eq (BitVec.ofNat 32 j.val) (BitVec.ofNat 32 c)) A B = if j.val = c then A else B := by
  have hj := j.isLt
  have hiff : (BitVec.ofNat 32 j.val = BitVec.ofNat 32 c) ↔ j.val = c := by
    constructor
    · intro h
      have h' := congrArg BitVec.toNat h
      rw [BitVec.toNat_ofNat, BitVec.toNat_ofNat] at h'
      omega
    · intro h; rw [h]
  show (if BitVec.ofBool (BitVec.ofNat 32 j.val == BitVec.ofNat 32 c) = 1#1 then A else B) = _
  by_cases h : j.val = c
  · have hb : (BitVec.ofNat 32 j.val == BitVec.ofNat 32 c) = true := beq_iff_eq.2 (hiff.2 h)
    rw [if_pos h, hb]
    exact if_pos (by decide)
  · have hb : (BitVec.ofNat 32 j.val == BitVec.ofNat 32 c) = false := beq_eq_false_iff_ne.2 fun e => h (hiff.1 e)
    rw [if_neg h, hb]
    exact if_neg (by decide)

/-- The left neighbour, the first column repeated. -/
theorem shift_col_prev (x : (⟨2, ![512, 512]⟩ : Shape).Idx → α)
    (hr : (⟨2, ![512, 512]⟩ : Shape).Rotates 1 none) (hi : (⟨2, ![512, 512]⟩ : Shape).Iotas .tc 32 [1])
    (hs : (⟨2, ![512, 512]⟩ : Shape).Slices ![0, 0] ⟨2, ![512, 1]⟩)
    (hc : (⟨2, ![512, 1]⟩ : Shape).ShapeCasts ⟨2, ![512, 1]⟩)
    (hb : (⟨2, ![512, 1]⟩ : Shape).Broadcasts ⟨2, ![512, 512]⟩) (i j : Fin 512) :
    select (cmpi .eq (iota .tc ⟨2, ![512, 512]⟩ 32 [1] hi) (broadcast ⟨2, ![512, 512]⟩ 0#32))
        (broadcastTo ⟨2, ![512, 512]⟩
          (shapeCast ⟨2, ![512, 1]⟩ (extractStridedSlice ⟨2, ![512, 1]⟩ ![0, 0] x hs) hc) hb)
        (dynamicRotate 1 1#32 none x hr) (ix2 i j)
      = x (ix2 i (prev j)) := by
  have e1 : iota .tc ⟨2, ![512, 512]⟩ 32 [1] hi (ix2 i j) = BitVec.ofNat 32 j.val :=
    iota_single_apply .tc ⟨2, ![512, 512]⟩ 32 1 hi (ix2 i j)
  have e2 : broadcastTo ⟨2, ![512, 512]⟩
      (shapeCast ⟨2, ![512, 1]⟩ (extractStridedSlice ⟨2, ![512, 1]⟩ ![0, 0] x hs) hc) hb (ix2 i j)
      = x (ix2 i (0 : Fin 512)) := by
    rw [shapeCast_self]
    refine (Cert.LibColumn.broadcastTo_a1_ab_apply _ hb i j).trans ?_
    exact slice2_axis1_apply 0 x hs i (0 : Fin 1) (0 : Fin 512) rfl
  have e3 : dynamicRotate 1 1#32 none x hr (ix2 i j)
      = x (ix2 i (⟨(j.val + 511) % 512, Nat.mod_lt _ (by decide)⟩ : Fin 512)) := by
    refine dynamicRotate_apply 1 1#32 x hr (ix2 i j) _ fun b => ?_
    match b with
    | ⟨0, _⟩ => rfl
    | ⟨1, _⟩ => rfl
  show Scalar.select (IntOp.cmpi .eq (iota .tc ⟨2, ![512, 512]⟩ 32 [1] hi (ix2 i j)) (0#32)) _ _ = _
  rw [e1, e2, e3, select_coord_eq j 0 (by decide)]
  have hj := j.isLt
  by_cases h : j.val = 0
  · rw [if_pos h]
    exact congrArg (fun q => x (ix2 i q)) (Fin.ext (by show (0 : ℕ) = j.val - 1; omega))
  · rw [if_neg h]
    exact congrArg (fun q => x (ix2 i q)) (Fin.ext (by show (j.val + 511) % 512 = j.val - 1; omega))

/-- The upper neighbour, the first row repeated. -/
theorem shift_row_prev (x : (⟨2, ![512, 512]⟩ : Shape).Idx → α)
    (hr : (⟨2, ![512, 512]⟩ : Shape).Rotates 0 none) (hi : (⟨2, ![512, 512]⟩ : Shape).Iotas .tc 32 [0])
    (hs : (⟨2, ![512, 512]⟩ : Shape).Slices ![0, 0] ⟨2, ![1, 512]⟩)
    (hc : (⟨2, ![1, 512]⟩ : Shape).ShapeCasts ⟨2, ![1, 512]⟩)
    (hb : (⟨2, ![1, 512]⟩ : Shape).Broadcasts ⟨2, ![512, 512]⟩) (i j : Fin 512) :
    select (cmpi .eq (iota .tc ⟨2, ![512, 512]⟩ 32 [0] hi) (broadcast ⟨2, ![512, 512]⟩ 0#32))
        (broadcastTo ⟨2, ![512, 512]⟩
          (shapeCast ⟨2, ![1, 512]⟩ (extractStridedSlice ⟨2, ![1, 512]⟩ ![0, 0] x hs) hc) hb)
        (dynamicRotate 0 1#32 none x hr) (ix2 i j)
      = x (ix2 (prev i) j) := by
  have e1 : iota .tc ⟨2, ![512, 512]⟩ 32 [0] hi (ix2 i j) = BitVec.ofNat 32 i.val :=
    iota_single_apply .tc ⟨2, ![512, 512]⟩ 32 0 hi (ix2 i j)
  have e2 : broadcastTo ⟨2, ![512, 512]⟩
      (shapeCast ⟨2, ![1, 512]⟩ (extractStridedSlice ⟨2, ![1, 512]⟩ ![0, 0] x hs) hc) hb (ix2 i j)
      = x (ix2 (0 : Fin 512) j) := by
    rw [shapeCast_self]
    refine (broadcastTo_1b_ab_apply _ hb i j).trans ?_
    exact slice2_axis0_apply 0 x hs (0 : Fin 1) j (0 : Fin 512) rfl
  have e3 : dynamicRotate 0 1#32 none x hr (ix2 i j)
      = x (ix2 (⟨(i.val + 511) % 512, Nat.mod_lt _ (by decide)⟩ : Fin 512) j) := by
    refine dynamicRotate_apply 0 1#32 x hr (ix2 i j) _ fun b => ?_
    match b with
    | ⟨0, _⟩ => rfl
    | ⟨1, _⟩ => rfl
  show Scalar.select (IntOp.cmpi .eq (iota .tc ⟨2, ![512, 512]⟩ 32 [0] hi (ix2 i j)) (0#32)) _ _ = _
  rw [e1, e2, e3, select_coord_eq i 0 (by decide)]
  have hi' := i.isLt
  by_cases h : i.val = 0
  · rw [if_pos h]
    exact congrArg (fun q => x (ix2 q j)) (Fin.ext (by show (0 : ℕ) = i.val - 1; omega))
  · rw [if_neg h]
    exact congrArg (fun q => x (ix2 q j)) (Fin.ext (by show (i.val + 511) % 512 = i.val - 1; omega))

/-- The right neighbour, the last column repeated. -/
theorem shift_col_next (x : (⟨2, ![512, 512]⟩ : Shape).Idx → α)
    (hr : (⟨2, ![512, 512]⟩ : Shape).Rotates 1 none) (hi : (⟨2, ![512, 512]⟩ : Shape).Iotas .tc 32 [1])
    (hs : (⟨2, ![512, 512]⟩ : Shape).Slices ![0, 511] ⟨2, ![512, 1]⟩)
    (hc : (⟨2, ![512, 1]⟩ : Shape).ShapeCasts ⟨2, ![512, 1]⟩)
    (hb : (⟨2, ![512, 1]⟩ : Shape).Broadcasts ⟨2, ![512, 512]⟩) (i j : Fin 512) :
    select (cmpi .eq (iota .tc ⟨2, ![512, 512]⟩ 32 [1] hi) (broadcast ⟨2, ![512, 512]⟩ 511#32))
        (broadcastTo ⟨2, ![512, 512]⟩
          (shapeCast ⟨2, ![512, 1]⟩ (extractStridedSlice ⟨2, ![512, 1]⟩ ![0, 511] x hs) hc) hb)
        (dynamicRotate 1 511#32 none x hr) (ix2 i j)
      = x (ix2 i (next j)) := by
  have e1 : iota .tc ⟨2, ![512, 512]⟩ 32 [1] hi (ix2 i j) = BitVec.ofNat 32 j.val :=
    iota_single_apply .tc ⟨2, ![512, 512]⟩ 32 1 hi (ix2 i j)
  have e2 : broadcastTo ⟨2, ![512, 512]⟩
      (shapeCast ⟨2, ![512, 1]⟩ (extractStridedSlice ⟨2, ![512, 1]⟩ ![0, 511] x hs) hc) hb (ix2 i j)
      = x (ix2 i (⟨511, by decide⟩ : Fin 512)) := by
    rw [shapeCast_self]
    refine (Cert.LibColumn.broadcastTo_a1_ab_apply _ hb i j).trans ?_
    exact slice2_axis1_apply 511 x hs i (0 : Fin 1) (⟨511, by decide⟩ : Fin 512) rfl
  have e3 : dynamicRotate 1 511#32 none x hr (ix2 i j)
      = x (ix2 i (⟨(j.val + 1) % 512, Nat.mod_lt _ (by decide)⟩ : Fin 512)) := by
    refine dynamicRotate_apply 1 511#32 x hr (ix2 i j) _ fun b => ?_
    match b with
    | ⟨0, _⟩ => rfl
    | ⟨1, _⟩ =>
      show (j.val + 1) % 512 = (j.val + 512 - 511 % 512) % 512
      omega
  show Scalar.select (IntOp.cmpi .eq (iota .tc ⟨2, ![512, 512]⟩ 32 [1] hi (ix2 i j)) (511#32)) _ _ = _
  rw [e1, e2, e3, select_coord_eq j 511 (by decide)]
  have hj := j.isLt
  by_cases h : j.val = 511
  · rw [if_pos h]
    exact congrArg (fun q => x (ix2 i q)) (Fin.ext (by show (511 : ℕ) = min (j.val + 1) 511; omega))
  · rw [if_neg h]
    exact congrArg (fun q => x (ix2 i q)) (Fin.ext (by show (j.val + 1) % 512 = min (j.val + 1) 511; omega))

/-- The lower neighbour, the last row repeated. -/
theorem shift_row_next (x : (⟨2, ![512, 512]⟩ : Shape).Idx → α)
    (hr : (⟨2, ![512, 512]⟩ : Shape).Rotates 0 none) (hi : (⟨2, ![512, 512]⟩ : Shape).Iotas .tc 32 [0])
    (hs : (⟨2, ![512, 512]⟩ : Shape).Slices ![511, 0] ⟨2, ![1, 512]⟩)
    (hc : (⟨2, ![1, 512]⟩ : Shape).ShapeCasts ⟨2, ![1, 512]⟩)
    (hb : (⟨2, ![1, 512]⟩ : Shape).Broadcasts ⟨2, ![512, 512]⟩) (i j : Fin 512) :
    select (cmpi .eq (iota .tc ⟨2, ![512, 512]⟩ 32 [0] hi) (broadcast ⟨2, ![512, 512]⟩ 511#32))
        (broadcastTo ⟨2, ![512, 512]⟩
          (shapeCast ⟨2, ![1, 512]⟩ (extractStridedSlice ⟨2, ![1, 512]⟩ ![511, 0] x hs) hc) hb)
        (dynamicRotate 0 511#32 none x hr) (ix2 i j)
      = x (ix2 (next i) j) := by
  have e1 : iota .tc ⟨2, ![512, 512]⟩ 32 [0] hi (ix2 i j) = BitVec.ofNat 32 i.val :=
    iota_single_apply .tc ⟨2, ![512, 512]⟩ 32 0 hi (ix2 i j)
  have e2 : broadcastTo ⟨2, ![512, 512]⟩
      (shapeCast ⟨2, ![1, 512]⟩ (extractStridedSlice ⟨2, ![1, 512]⟩ ![511, 0] x hs) hc) hb (ix2 i j)
      = x (ix2 (⟨511, by decide⟩ : Fin 512) j) := by
    rw [shapeCast_self]
    refine (broadcastTo_1b_ab_apply _ hb i j).trans ?_
    exact slice2_axis0_apply 511 x hs (0 : Fin 1) j (⟨511, by decide⟩ : Fin 512) rfl
  have e3 : dynamicRotate 0 511#32 none x hr (ix2 i j)
      = x (ix2 (⟨(i.val + 1) % 512, Nat.mod_lt _ (by decide)⟩ : Fin 512) j) := by
    refine dynamicRotate_apply 0 511#32 x hr (ix2 i j) _ fun b => ?_
    match b with
    | ⟨0, _⟩ =>
      show (i.val + 1) % 512 = (i.val + 512 - 511 % 512) % 512
      omega
    | ⟨1, _⟩ => rfl
  show Scalar.select (IntOp.cmpi .eq (iota .tc ⟨2, ![512, 512]⟩ 32 [0] hi (ix2 i j)) (511#32)) _ _ = _
  rw [e1, e2, e3, select_coord_eq i 511 (by decide)]
  have hi' := i.isLt
  by_cases h : i.val = 511
  · rw [if_pos h]
    exact congrArg (fun q => x (ix2 q j)) (Fin.ext (by show (511 : ℕ) = min (i.val + 1) 511; omega))
  · rw [if_neg h]
    exact congrArg (fun q => x (ix2 q j)) (Fin.ext (by show (i.val + 1) % 512 = min (i.val + 1) 511; omega))

end Cert.KernelIdeal.Pay

end
-- ==== Proof.PayImage.lean ====
/-
  One image's body, read at a row: the row's sum of squared differences between the image and its opening.

  The body works on the loaded 512 × 512 image X in four shifted steps.  The minimum of X and its left neighbour
  (first column repeated), then the minimum of that and its upper neighbour (first row repeated), is the erosion of
  X over the window {i − 1, i} × {j − 1, j}; the maximum of the erosion and its right neighbour (last column
  repeated), then of that and its lower neighbour (last row repeated), is the dilation of the erosion, the opening of X.
  The body then squares X minus its opening entry by entry and sums each row.
-/
import proofs.«101267_j61349312856565_2_alg».proof.Proof.Gen.KernelIdeal.Skeleton
import proofs.«101267_j61349312856565_2_alg».proof.Proof.PayShift

noncomputable section

open scoped BigOperators

namespace Cert.KernelIdeal.Pay

open Idealize.ShloMosaic Idealize.ShloMosaic.ValueIdx Cert.Opening

/-! ## The four steps, each as an operation on a 512 × 512 array -/

/-- The minimum of an array and its left neighbour, the first column repeated. -/
def minLeft (x : FVec Ideal S512x512 .f32) : FVec Ideal S512x512 .f32 :=
  minimumf x
    (select (cmpi .eq (iota .tc S512x512 32 [1] Gen.iota_S512x512_d1_w32) (broadcast S512x512 0#32))
      (broadcastTo S512x512
        (shapeCast S512x1 (extractStridedSlice S512x1 ![0, 0] x Gen.slices_S512x512_o0_0_S512x1)
          Gen.shapeCasts_S512x1_S512x1) Gen.broadcasts_S512x1_S512x512)
      (dynamicRotate 1 1#32 none x Gen.rotates_S512x512_d1))

/-- The minimum of an array and its upper neighbour, the first row repeated. -/
def minUp (x : FVec Ideal S512x512 .f32) : FVec Ideal S512x512 .f32 :=
  minimumf x
    (select (cmpi .eq (iota .tc S512x512 32 [0] Gen.iota_S512x512_d0_w32) (broadcast S512x512 0#32))
      (broadcastTo S512x512
        (shapeCast S1x512 (extractStridedSlice S1x512 ![0, 0] x Gen.slices_S512x512_o0_0_S1x512)
          Gen.shapeCasts_S1x512_S1x512) Gen.broadcasts_S1x512_S512x512)
      (dynamicRotate 0 1#32 none x Gen.rotates_S512x512_d0))

/-- The maximum of an array and its right neighbour, the last column repeated. -/
def maxRight (x : FVec Ideal S512x512 .f32) : FVec Ideal S512x512 .f32 :=
  maximumf x
    (select (cmpi .eq (iota .tc S512x512 32 [1] Gen.iota_S512x512_d1_w32) (broadcast S512x512 511#32))
      (broadcastTo S512x512
        (shapeCast S512x1 (extractStridedSlice S512x1 ![0, 511] x Gen.slices_S512x512_o0_511_S512x1)
          Gen.shapeCasts_S512x1_S512x1) Gen.broadcasts_S512x1_S512x512)
      (dynamicRotate 1 511#32 none x Gen.rotates_S512x512_d1))

/-- The maximum of an array and its lower neighbour, the last row repeated. -/
def maxDown (x : FVec Ideal S512x512 .f32) : FVec Ideal S512x512 .f32 :=
  maximumf x
    (select (cmpi .eq (iota .tc S512x512 32 [0] Gen.iota_S512x512_d0_w32) (broadcast S512x512 511#32))
      (broadcastTo S512x512
        (shapeCast S1x512 (extractStridedSlice S1x512 ![511, 0] x Gen.slices_S512x512_o511_0_S1x512)
          Gen.shapeCasts_S1x512_S1x512) Gen.broadcasts_S1x512_S512x512)
      (dynamicRotate 0 511#32 none x Gen.rotates_S512x512_d0))

/-- The squared difference between an array and the four steps applied to it, summed along each row, as a column. -/
def rowSums (x : FVec Ideal S512x512 .f32) : FVec Ideal S512x1 .f32 :=
  shapeCast S512x1
    (multiReduction (F := Ideal) .add [1] S512
      (mulf (subf x (maxDown (maxRight (minUp (minLeft x))))) (subf x (maxDown (maxRight (minUp (minLeft x))))))
      0x00000000#32 Gen.reduces_S512x512_S512 (.inl rfl) rfl)
    Gen.shapeCasts_S512_S512x1

/-- The body's stored column is these row sums of the loaded block seen as a 512 × 512 array. -/
theorem pay4_eq (v10 : Vec Ideal S1x512x512 .f32) :
    Gen.k0_pay4 (F := Ideal) v10 = rowSums (shapeCast S512x512 v10 Gen.shapeCasts_S1x512x512_S512x512) := rfl

/-! ## Each step at an entry -/

theorem minLeft_apply (x : FVec Ideal S512x512 .f32) (i j : Fin 512) :
    minLeft x (ix2 i j) = min (x (ix2 i j)) (x (ix2 i (prev j))) :=
  congrArg (min (x (ix2 i j))) (shift_col_prev x _ _ _ _ _ i j)

theorem minUp_apply (x : FVec Ideal S512x512 .f32) (i j : Fin 512) :
    minUp x (ix2 i j) = min (x (ix2 i j)) (x (ix2 (prev i) j)) :=
  congrArg (min (x (ix2 i j))) (shift_row_prev x _ _ _ _ _ i j)

theorem maxRight_apply (x : FVec Ideal S512x512 .f32) (i j : Fin 512) :
    maxRight x (ix2 i j) = max (x (ix2 i j)) (x (ix2 i (next j))) :=
  congrArg (max (x (ix2 i j))) (shift_col_next x _ _ _ _ _ i j)

theorem maxDown_apply (x : FVec Ideal S512x512 .f32) (i j : Fin 512) :
    maxDown x (ix2 i j) = max (x (ix2 i j)) (x (ix2 (next i) j)) :=
  congrArg (max (x (ix2 i j))) (shift_row_next x _ _ _ _ _ i j)

/-- The two minimum steps are the erosion. -/
theorem ero_apply (x : FVec Ideal S512x512 .f32) (i j : Fin 512) :
    minUp (minLeft x) (ix2 i j) = ero (fun a b => x (ix2 a b)) i j := by
  rw [minUp_apply, minLeft_apply, minLeft_apply]
  rfl

/-- The two maximum steps after them are the dilation of the erosion. -/
theorem opening_apply (x : FVec Ideal S512x512 .f32) (i j : Fin 512) :
    maxDown (maxRight (minUp (minLeft x))) (ix2 i j) = dil (ero (fun a b => x (ix2 a b))) i j := by
  rw [maxDown_apply, maxRight_apply, maxRight_apply, ero_apply, ero_apply, ero_apply, ero_apply]
  rfl

/-- The row sums at a row: that row's sum of squared differences. -/
theorem rowSums_apply (x : FVec Ideal S512x512 .f32) (r : Fin 512) :
    rowSums x (ix2 r (0 : Fin 1)) = rowLoss (fun a b => x (ix2 a b)) r := by
  unfold rowSums
  refine (Cert.LibColumn.shapeCast_a_a1_apply _ _ r (0 : Fin 1)).trans ?_
  refine (Cert.LibColumn.sum_last_apply _ _ _ _ r).trans ?_
  unfold rowLoss
  refine Finset.sum_congr rfl fun j _ => ?_
  show (x (ix2 r j) - maxDown (maxRight (minUp (minLeft x))) (ix2 r j))
      * (x (ix2 r j) - maxDown (maxRight (minUp (minLeft x))) (ix2 r j)) = _
  rw [opening_apply]
  rfl

/-- One image's stored column at row r: the row's sum of squared differences between the image and its opening. -/
theorem pay4_apply (v10 : Vec Ideal S1x512x512 .f32) (r : Fin 512) :
    Gen.k0_pay4 (F := Ideal) v10 (ix2 r (0 : Fin 1)) = rowLoss (fun i j => v10 (ix3 (0 : Fin 1) i j)) r := by
  have hX : (fun a b : Fin 512 => shapeCast S512x512 v10 Gen.shapeCasts_S1x512x512_S512x512 (ix2 a b))
      = fun i j => v10 (ix3 (0 : Fin 1) i j) :=
    funext fun i => funext fun j => shapeCast_1ab_ab_apply v10 Gen.shapeCasts_S1x512x512_S512x512 i j
  refine (congrFun (pay4_eq v10) (ix2 r (0 : Fin 1))).trans ?_
  refine (rowSums_apply _ r).trans ?_
  exact congrArg (fun X : Img => rowLoss X r) hX

end Cert.KernelIdeal.Pay

end
-- ==== Proof.KPoint.lean ====
/-
  What one grid point leaves, case by case, at the ideal values.

  A point whose step index is 0 first zeroes the accumulator, so after its sixteen trips the accumulator holds the
  loss of the point's block; any other point adds its block's loss to what the point before left. A point whose
  step index is 3 then writes the output block: the accumulator at entry (0, 0), zero everywhere else.
-/
import proofs.«101267_j61349312856565_2_alg».proof.Proof.KLoop
import proofs.«101267_j61349312856565_2_alg».proof.Proof.PaySmall
import proofs.«101267_j61349312856565_2_alg».proof.Proof.PayImage

set_option maxRecDepth 16384

noncomputable section

namespace Cert.KernelIdeal.KPoint

open Idealize.ShloMosaic Idealize.ShloMosaic.TcCoe Idealize.ShloMosaic.ValueIdx
open Idealize.SL.Sem
open Cert.KernelIdeal Cert.KernelIdeal.Gen Cert.KernelIdeal.KLoop

/-- The payload reads the accumulation rests on. -/
theorem payReads : PayReads := ⟨Pay.pay2_apply, Pay.pay4_apply⟩

/-- The loss of a block of sixteen images. -/
def blockLoss (x0 : Vec Ideal S16x512x512 .f32) : EReal := ∑ n ∈ Finset.range 16, Cert.Opening.imgLoss (imgOf x0 n)

/-- The accumulator is a whole buffer. -/
abbrev h4 : scM0_0.IsWhole := Memref.isWhole_whole _

/-- The output block's whole rectangle starts at the origin. -/
theorem hz8 : (![0, 0] : Fin S8x128.rank → ℕ) = fun _ => 0 := by
  funext a; match a with | ⟨0, _⟩ => rfl | ⟨1, _⟩ => rfl

/-- A point that zeroes the accumulator first leaves its block's loss in it. -/
theorem sout_A (c : Dev nD) (i : grid0.Coords) (arg2 : Memref sig .tc .vmem S16x512x512 .f32) (harg2 : arg2.IsWhole)
    (arg3 : Memref sig .tc .vmem S8x128 .f32) (harg3 : arg3.IsWhole) (hc0 : cond0_0 i) (hc1 : ¬cond0_1 i)
    (x0 : Vec Ideal S16x512x512 .f32) :
    sout0_A_0 (F := Ideal) c i arg2 harg2 arg3 harg3 scM0_0 h4 hc0 hc1 x0 z = blockLoss x0 := by
  unfold sout0_A_0
  rw [show (kernelRun0_A (F := Ideal) c i arg2 harg2 arg3 harg3 scM0_0 h4 hc0 hc1 x0).2.1
        = pb_k0_t1 (F := Ideal) Variants.none c none i arg2 harg2 arg3 harg3 scM0_0 h4 (harg2.unread x0)
            (scM0_0.view.writes (Elt Ideal) scM0_0.view.junk kernelRun0_A.sl.HS0_1) 16 ++ kernelRun0_A.sl.HS0_1 from by
      unfold kernelRun0_A; rfl]
  rw [View.writes_append]
  refine (read_after_trips payReads c i arg2 harg2 arg3 harg3 scM0_0 h4 x0 _ 16 le_rfl).trans ?_
  have h0 : View.read (Elt Ideal) scM0_0.view
      (scM0_0.view.writes (Elt Ideal) scM0_0.view.junk (kernelRun0_A.sl.HS0_1 (F := Ideal))) z = 0 := by
    unfold kernelRun0_A.sl.HS0_1
    rw [View.read_writes_eq_canon _ _ _ (fun y => ⟨_, List.mem_singleton_self _, View.mem_set_unit_zero hz Gen.inb_S1x1_S1x1_0_0 y⟩),
      View.canon_unit_zero hz, Pay.pay1_apply]
  rw [h0, zero_add]; rfl

/-- A later point that does not write the output adds its block's loss to what it found. -/
theorem sout_B (c : Dev nD) (i : grid0.Coords) (arg2 : Memref sig .tc .vmem S16x512x512 .f32) (harg2 : arg2.IsWhole)
    (arg3 : Memref sig .tc .vmem S8x128 .f32) (harg3 : arg3.IsWhole) (hc0 : ¬cond0_0 i) (hc1 : ¬cond0_1 i)
    (x0 : Vec Ideal S16x512x512 .f32) (xs0 : Vec Ideal S1x1 .f32) :
    sout0_B_0 (F := Ideal) c i arg2 harg2 arg3 harg3 scM0_0 h4 hc0 hc1 x0 xs0 z = xs0 z + blockLoss x0 := by
  unfold sout0_B_0
  rw [View.read_writes_eq_canon _ _ _ (scover0_B_0 c i arg2 harg2 arg3 harg3 scM0_0 h4 hc0 hc1 x0 xs0),
    ← View.read_writes_eq_canon scM0_0.view (h4.unread xs0) _ (scover0_B_0 c i arg2 harg2 arg3 harg3 scM0_0 h4 hc0 hc1 x0 xs0)]
  rw [show (kernelRun0_B (F := Ideal) c i arg2 harg2 arg3 harg3 scM0_0 h4 hc0 hc1 x0 xs0).2.1
        = pb_k0_t1 (F := Ideal) Variants.none c none i arg2 harg2 arg3 harg3 scM0_0 h4 (harg2.unread x0) (h4.unread xs0) 16 from by
      unfold kernelRun0_B; rfl]
  refine (read_after_trips payReads c i arg2 harg2 arg3 harg3 scM0_0 h4 x0 _ 16 le_rfl).trans ?_
  rw [h4.read_unread]; rfl

/-- So does the point that writes the output. -/
theorem sout_C (c : Dev nD) (i : grid0.Coords) (arg2 : Memref sig .tc .vmem S16x512x512 .f32) (harg2 : arg2.IsWhole)
    (arg3 : Memref sig .tc .vmem S8x128 .f32) (harg3 : arg3.IsWhole) (hc0 : ¬cond0_0 i) (hc1 : cond0_1 i)
    (x0 : Vec Ideal S16x512x512 .f32) (xs0 : Vec Ideal S1x1 .f32) :
    sout0_C_0 (F := Ideal) c i arg2 harg2 arg3 harg3 scM0_0 h4 hc0 hc1 x0 xs0 z = xs0 z + blockLoss x0 := by
  unfold sout0_C_0
  rw [View.read_writes_eq_canon _ _ _ (scover0_C_0 c i arg2 harg2 arg3 harg3 scM0_0 h4 hc0 hc1 x0 xs0),
    ← View.read_writes_eq_canon scM0_0.view (h4.unread xs0) _ (scover0_C_0 c i arg2 harg2 arg3 harg3 scM0_0 h4 hc0 hc1 x0 xs0)]
  rw [show (kernelRun0_C (F := Ideal) c i arg2 harg2 arg3 harg3 scM0_0 h4 hc0 hc1 x0 xs0).2.1
        = pb_k0_t1 (F := Ideal) Variants.none c none i arg2 harg2 arg3 harg3 scM0_0 h4 (harg2.unread x0) (h4.unread xs0) 16 from by
      unfold kernelRun0_C; rfl]
  refine (read_after_trips payReads c i arg2 harg2 arg3 harg3 scM0_0 h4 x0 _ 16 le_rfl).trans ?_
  rw [h4.read_unread]; rfl

/-- The output block it writes: the accumulator after the trips at entry (0, 0), zero elsewhere. -/
theorem out_C (c : Dev nD) (i : grid0.Coords) (arg2 : Memref sig .tc .vmem S16x512x512 .f32) (harg2 : arg2.IsWhole)
    (arg3 : Memref sig .tc .vmem S8x128 .f32) (harg3 : arg3.IsWhole) (hc0 : ¬cond0_0 i) (hc1 : cond0_1 i)
    (x0 : Vec Ideal S16x512x512 .f32) (xs0 : Vec Ideal S1x1 .f32) (r : Fin 8) (l : Fin 128) :
    out0_C_1 (F := Ideal) c i arg2 harg2 arg3 harg3 scM0_0 h4 hc0 hc1 x0 xs0 (ix2 r l)
      = if r.val = 0 ∧ l.val = 0 then xs0 z + blockLoss x0 else 0 := by
  unfold out0_C_1
  rw [View.read_writes_eq_canon _ _ _ (cover0_C_1 c i arg2 harg2 arg3 harg3 scM0_0 h4 hc0 hc1 x0 xs0)]
  rw [show (kernelRun0_C (F := Ideal) c i arg2 harg2 arg3 harg3 scM0_0 h4 hc0 hc1 x0 xs0).1
        = [⟨Rect.unit (s := S8x128) ![0, 0] S8x128.size Gen.inb_S8x128_S8x128_0_0,
            k0_pay3 (kernelRun0_C.sl.v14 c i arg2 harg2 arg3 harg3 scM0_0 h4 x0 xs0)⟩] from by
      unfold kernelRun0_C; rfl]
  rw [View.canon_unit_zero hz8, Pay.pay3_apply]
  have hv : kernelRun0_C.sl.v14 (F := Ideal) c i arg2 harg2 arg3 harg3 scM0_0 h4 x0 xs0 z = xs0 z + blockLoss x0 := by
    unfold kernelRun0_C.sl.v14
    rw [View.readAt_eq_ld, View.ld_unit_zero hz]
    refine (read_after_trips payReads c i arg2 harg2 arg3 harg3 scM0_0 h4 x0 _ 16 le_rfl).trans ?_
    rw [h4.read_unread]; rfl
  rw [hv]

end Cert.KernelIdeal.KPoint

end
-- ==== Proof.KGrid.lean ====
/-
  The eight grid points, read as a value.

  The grid is two cores by four steps, point `n` being step `n % 4` of core `n / 4`. The accumulator after point
  `n` holds the losses of the blocks of its core's points up to `n`; the output block written at a core's last point
  holds that core's four blocks' losses at entry (0, 0) and zero elsewhere.
-/
import proofs.«101267_j61349312856565_2_alg».proof.Proof.KPoint

set_option maxRecDepth 16384

noncomputable section

namespace Cert.KernelIdeal.KGrid

open Idealize.ShloMosaic Idealize.ShloMosaic.TcCoe Idealize.ShloMosaic.ValueIdx
open Idealize.SL.Sem
open Cert.KernelIdeal Cert.KernelIdeal.Gen Cert.KernelIdeal.KLoop Cert.KernelIdeal.KPoint

variable (m : (ℓ : Loc nD τ sig) → Buf (Elt Ideal) ℓ) (c : Dev nD)

/-- The loss of the block grid point `n` reads (zero past the grid). -/
def ptLoss (n : ℕ) : EReal := if h : n < cfg0.N then blockLoss (iblk m c 0 ⟨n, h⟩) else 0

theorem ptLoss_of_lt (n : ℕ) (h : n < cfg0.N) : ptLoss m c n = blockLoss (iblk m c 0 ⟨n, h⟩) := dif_pos h

/-- The accumulation does not depend on how the point's bound is proved. -/
theorem outsAt_congr {a b : ℕ} (e : a = b) (ha : a < cfg0.N) (hb : b < cfg0.N) : outsAt0 m c a ha = outsAt0 m c b hb := by
  subst e; rfl

/-- AFTER POINT `n` the accumulator holds the losses of the blocks of its core's points up to `n`. -/
theorem scratch_at : ∀ (n : ℕ) (hn : n < cfg0.N),
    (outsAt0 m c n hn).2 z = ∑ s ∈ Finset.Icc (n - n % 4) n, ptLoss m c s := by
  intro n
  induction n with
  | zero =>
    intro hn
    rw [show outsAt0 m c 0 hn = _ from outsAt0_A m c ⟨0, hn⟩ rfl (by show ¬(0 : ℕ) % 4 = 3; omega)]
    show sout0_A_0 (F := Ideal) c _ _ _ _ _ scM0_0 h4 _ _ _ z = _
    rw [sout_A, show (0 - 0 % 4 : ℕ) = 0 from rfl, Finset.Icc_self, Finset.sum_singleton, ptLoss_of_lt m c 0 hn]
  | succ n ih =>
    intro hn
    have hN : cfg0.N = 8 := N_0
    have hn' : n < cfg0.N := Nat.lt_of_succ_lt hn
    by_cases h0 : (n + 1) % 4 = 0
    · rw [show outsAt0 m c (n + 1) hn = _ from outsAt0_A m c ⟨n + 1, hn⟩ h0 (by show ¬(n + 1) % 4 = 3; omega)]
      show sout0_A_0 (F := Ideal) c _ _ _ _ _ scM0_0 h4 _ _ _ z = _
      rw [sout_A, show (n + 1 - (n + 1) % 4 : ℕ) = n + 1 from by omega, Finset.Icc_self, Finset.sum_singleton,
        ptLoss_of_lt m c (n + 1) hn]
    · have hlow : n + 1 - (n + 1) % 4 = n - n % 4 := by omega
      have hle : n - n % 4 ≤ n + 1 := by omega
      have hprev : (outsAt0 m c ((⟨n + 1, hn⟩ : Fin cfg0.N).val - 1) (Nat.lt_of_le_of_lt (Nat.sub_le _ _) hn)).2 z
          = ∑ s ∈ Finset.Icc (n - n % 4) n, ptLoss m c s := by
        rw [outsAt_congr m c (show (⟨n + 1, hn⟩ : Fin cfg0.N).val - 1 = n from rfl) _ hn']
        exact ih hn'
      by_cases h1 : (n + 1) % 4 = 3
      · rw [show outsAt0 m c (n + 1) hn = _ from outsAt0_C m c ⟨n + 1, hn⟩ h0 h1]
        show sout0_C_0 (F := Ideal) c _ _ _ _ _ scM0_0 h4 _ _ _ _ z = _
        rw [sout_C, hprev, hlow, Finset.sum_Icc_succ_top hle, ptLoss_of_lt m c (n + 1) hn]
      · rw [show outsAt0 m c (n + 1) hn = _ from outsAt0_B m c ⟨n + 1, hn⟩ h0 h1]
        show sout0_B_0 (F := Ideal) c _ _ _ _ _ scM0_0 h4 _ _ _ _ z = _
        rw [sout_B, hprev, hlow, Finset.sum_Icc_succ_top hle, ptLoss_of_lt m c (n + 1) hn]

/-- THE OUTPUT BLOCK a core's last point writes: the core's four blocks' losses at entry (0, 0), zero elsewhere. -/
theorem out_at (t : Fin cfg0.N) (h3 : t.val % 4 = 3) (r : Fin 8) (l : Fin 128) :
    (outsAt0 m c t.val t.isLt).1 (ix2 r l)
      = if r.val = 0 ∧ l.val = 0 then ∑ s ∈ Finset.Icc (t.val - 3) t.val, ptLoss m c s else 0 := by
  have hN : cfg0.N = 8 := N_0
  have h0 : ¬t.val % 4 = 0 := by omega
  have hpos : 0 < t.val := by omega
  rw [outsAt0_C m c t h0 h3]
  refine (out_C c (grid0.coords t) (ms0_0 t) (hs0_0 t) (ms0_1 t) (hs0_1 t) (fun h => h0 ((hcond0_0 t).mp h)) ((hcond0_1 t).mpr h3)
      (iblk m c 0 t) (outsAt0 m c (t.val - 1) (Nat.lt_of_le_of_lt (Nat.sub_le _ _) t.isLt)).2 r l).trans ?_
  by_cases hrl : r.val = 0 ∧ l.val = 0
  · rw [if_pos hrl, if_pos hrl]
    have hprev := scratch_at m c (t.val - 1) (Nat.lt_of_le_of_lt (Nat.sub_le _ _) t.isLt)
    have hpt : ptLoss m c t.val = blockLoss (iblk m c 0 t) := ptLoss_of_lt m c t.val t.isLt
    have hs : ∑ s ∈ Finset.Icc (t.val - 3) t.val, ptLoss m c s
        = ∑ s ∈ Finset.Icc (t.val - 3) (t.val - 1), ptLoss m c s + ptLoss m c t.val := by
      have h := Finset.sum_Icc_succ_top (a := t.val - 3) (b := t.val - 1) (by omega) (ptLoss m c)
      rwa [show t.val - 1 + 1 = t.val from by omega] at h
    rw [hprev, show t.val - 1 - (t.val - 1) % 4 = t.val - 3 from by omega, hs, hpt]
  · rw [if_neg hrl, if_neg hrl]

end Cert.KernelIdeal.KGrid

end
-- ==== Proof.KFlush.lean ====
/-
  The output array after the run.

  The output window's block is 8 × 128 and its index is the core, so core `q`'s block is rows 8q … 8q + 7 of the
  16 × 128 array; it is written back at the core's last point only. So the array ends with core `q`'s four blocks'
  losses at entry (8q, 0) and zero everywhere else.
-/
import proofs.«101267_j61349312856565_2_alg».proof.Proof.KGrid

set_option maxRecDepth 16384

noncomputable section

namespace Cert.KernelIdeal.KFlush

open Idealize.ShloMosaic Idealize.ShloMosaic.TcCoe Idealize.ShloMosaic.ValueIdx
open Idealize.SL.Sem
open Cert.KernelIdeal Cert.KernelIdeal.Gen Cert.KernelIdeal.KLoop Cert.KernelIdeal.KPoint Cert.KernelIdeal.KGrid

variable (m : (ℓ : Loc nD τ sig) → Buf (Elt Ideal) ℓ) (c : Dev nD)

/-- A core's loss: the losses of its four points' blocks. -/
def coreLoss (q : ℕ) : EReal := ∑ s ∈ Finset.Icc (4 * q) (4 * q + 3), ptLoss m c s

/-- The output array the run leaves: core `q`'s loss at entry (8q, 0), zero elsewhere. -/
def outArr : Vec Ideal S16x128 .f32 := fun y =>
  if (y 0).val % 8 = 0 ∧ (y 1).val = 0 then coreLoss m c ((y 0).val / 8) else 0

/-- The output window's block index at point `t` is the point's core, decided over the grid. -/
theorem idx_facts : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- WHAT A CORE'S LAST POINT WRITES BACK is its block of the output array. -/
theorem flushed_eq (t : Fin cfg0.N) (hf : (cfg0.win 1).flush t = true) :
    (dats m 0 c).flushed 1 t = ((cfg0.win 1).blk t).view.read (Elt Ideal) (outArr m c) := by
  have hN : cfg0.N = 8 := N_0
  have hlt : t.val < 8 := lt_of_lt_of_eq t.isLt hN
  have h3 : t.val % 4 = 3 := (flush0_1 t).mp hf
  obtain ⟨e0, e1⟩ := idx_facts t
  show (cfg0.win 1).cut (grid0.coords t) ((dats m 0 c).after 1 t) = _
  rw [after0_1]
  funext j
  have hj0 : (j 0).val < 8 := (j 0).isLt
  have hj1 : (j 1).val < 128 := (j 1).isLt
  have hj : j = ix2 (⟨(j 0).val, hj0⟩ : Fin 8) (⟨(j 1).val, hj1⟩ : Fin 128) := by
    funext a; match a with | ⟨0, _⟩ => rfl | ⟨1, _⟩ => rfl
  refine ((congrArg (outsAt0 m c t.val t.isLt).1 hj).trans (out_at m c t h3 _ _)).trans ?_
  show _ = (if (win0_1.index t (0 : Fin 2) * 8 + 1 * (j 0).val) % 8 = 0 ∧ (win0_1.index t (1 : Fin 2) * 128 + 1 * (j 1).val) = 0
      then coreLoss m c ((win0_1.index t (0 : Fin 2) * 8 + 1 * (j 0).val) / 8) else 0)
  rw [e0, e1]
  by_cases hc : (j 0).val = 0 ∧ (j 1).val = 0
  · rw [if_pos (show (⟨(j 0).val, hj0⟩ : Fin 8).val = 0 ∧ (⟨(j 1).val, hj1⟩ : Fin 128).val = 0 from hc),
      if_pos (show (t.val / 4 * 8 + 1 * (j 0).val) % 8 = 0 ∧ 0 * 128 + 1 * (j 1).val = 0 from by omega)]
    unfold coreLoss
    rw [show (t.val / 4 * 8 + 1 * (j 0).val) / 8 = t.val / 4 from by omega,
      show 4 * (t.val / 4) = t.val - 3 from by omega, show t.val - 3 + 3 = t.val from by omega]
  · rw [if_neg (show ¬((⟨(j 0).val, hj0⟩ : Fin 8).val = 0 ∧ (⟨(j 1).val, hj1⟩ : Fin 128).val = 0) from hc),
      if_neg (show ¬((t.val / 4 * 8 + 1 * (j 0).val) % 8 = 0 ∧ 0 * 128 + 1 * (j 1).val = 0) from by omega)]

/-- An index of the array is in point `t`'s block iff each coordinate is in the block's range on its axis. -/
theorem mem_blk (t : Fin cfg0.N) (i : S16x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- Every index of the array is in the block of its core's last point. -/
theorem cover (i : S16x128.Idx) : ∃ t : Fin cfg0.N, (cfg0.win 1).flush t = true ∧ i ∈ ((cfg0.win 1).blk t).view.set := by
  have hN : cfg0.N = 8 := N_0
  have hi0 : (i 0).val < 16 := (i 0).isLt
  have hi1 : (i 1).val < 128 := (i 1).isLt
  have ht : 4 * ((i 0).val / 8) + 3 < cfg0.N := by omega
  refine ⟨⟨4 * ((i 0).val / 8) + 3, ht⟩, (flush0_1 _).mpr (by show (4 * ((i 0).val / 8) + 3) % 4 = 3; omega), ?_⟩
  obtain ⟨e0, e1⟩ := idx_facts ⟨4 * ((i 0).val / 8) + 3, ht⟩
  rw [mem_blk]
  intro a
  match a with
  | ⟨0, _⟩ =>
    show win0_1.index ⟨4 * ((i 0).val / 8) + 3, ht⟩ (0 : Fin 2) * 8 ≤ (i 0).val ∧ (i 0).val < win0_1.index ⟨4 * ((i 0).val / 8) + 3, ht⟩ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_1.index ⟨4 * ((i 0).val / 8) + 3, ht⟩ (1 : Fin 2) * 128 ≤ (i 1).val ∧ (i 1).val < win0_1.index ⟨4 * ((i 0).val / 8) + 3, ht⟩ (1 : Fin 2) * 128 + 128
    rw [e1]; omega

/-- THE OUTPUT ARRAY after the run. -/
theorem final : (dats m 0 c).arrAt 1 cfg0.N = outArr m c :=
  (dats m 0 c).arrAt_eq_of_cover 1 (outArr m c) (flushed_eq m c) (fun i => cover i)

end Cert.KernelIdeal.KFlush

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.KMath.lean ====
/-
  Arithmetic around the kernel: which image a flat image number names, how the 128 images split over the grid, and
  what the closing sum and scaling make of the output tiles.

  The argument array holds 8 × 16 images; read as a stack of 128 images in row-major order, image N is (N / 16, N % 16).
  The grid has eight points, each working on sixteen consecutive images, so the eight points' sums together are the
  sum over all 128 images; the two halves of the grid (points 0 to 3 and 4 to 7) split that sum in two.  The output is a
  16 × 128 array made of two 8 × 128 tiles, each zero except for its corner entry; its total is the sum of the two
  corner entries, and the result is that total times 2⁻²⁵, the float constant with exponent field 102 and zero fraction.
-/
import Idealize.ShloMosaic.PureOps.Ideal.Laws
import Idealize.ShloMosaic.Lib.ValueIdx
import Idealize.ShloMosaic.Lib.ValueLayout
import proofs.«101267_j61349312856565_2_alg».proof.Proof.Gen.KernelIdeal
import proofs.«101267_j61349312856565_2_alg».proof.Proof.Spec
import proofs.«101267_j61349312856565_2_alg».proof.Proof.LibBlockSum

noncomputable section

open scoped BigOperators

namespace Cert.KernelIdeal.KMath

open Cert.KernelIdeal Idealize.ShloMosaic Idealize.ShloMosaic.ValueIdx

/-! ## The stack of 128 images -/

/-- Image N of the stack, at (i, j), is entry (N / 16, N % 16, i, j) of the argument array: both sit at row-major
    position ((N · 512) + i) · 512 + j, since (N / 16) · 16 + N % 16 = N. -/
theorem reshape_image (A : Vec Ideal S8x16x512x512 .f32) (N : Fin 128) (i j : Fin 512) :
    shapeCast S128x512x512 A Gen.shapeCasts_S8x16x512x512_S128x512x512 (ix3 N i j) = Cert.Opening.image A N i j := by
  have hN := N.isLt
  show _ = A (ix4 (⟨N.val / 16, by omega⟩ : Fin 8) (⟨N.val % 16, by omega⟩ : Fin 16) i j)
  refine shapeCast_apply A _ (ix3 N i j) (ix4 (⟨N.val / 16, by omega⟩ : Fin 8) (⟨N.val % 16, by omega⟩ : Fin 16) i j) ?_
  rw [Shape.rowMajor_val_four, Shape.rowMajor_val_three]
  show ((N.val / 16 * 16 + N.val % 16) * 512 + i.val) * 512 + j.val = (N.val * 512 + i.val) * 512 + j.val
  have e : N.val / 16 * 16 + N.val % 16 = N.val := by omega
  rw [e]

/-! ## The closing sum and scaling -/

/-- The float constant the result is scaled by is 2⁻²⁵ = 1 / 33554432. -/
theorem ofBits_two_pow_neg25 : Ideal.ofBits .f32 0x33000000#32 = ((1 / 33554432 : ℝ) : EReal) := by
  simp [Ideal.ofBits, Ideal.ieee, -EReal.coe_mul]; norm_num

/-- A row of a tile that is zero away from lane 0 sums to its lane-0 entry. -/
theorem sum_lane0 (P : Prop) [Decidable P] (c : EReal) :
    (∑ l : Fin 128, if P ∧ l.val = 0 then c else 0) = if P then c else 0 := by
  rw [Finset.sum_eq_single (0 : Fin 128)]
  · by_cases hP : P
    · rw [if_pos ⟨hP, rfl⟩, if_pos hP]
    · rw [if_neg (fun h : P ∧ (0 : Fin 128).val = 0 => hP h.1), if_neg hP]
  · intro l _ hl
    exact if_neg fun h : P ∧ l.val = 0 => hl (Fin.ext h.2)
  · intro h0
    exact absurd (Finset.mem_univ _) h0

/-- Of sixteen rows only rows 0 and 8 are multiples of 8: the first carries one value, the second the other. -/
theorem sum_rows (q0 q1 : EReal) :
    (∑ R : Fin 16, if R.val % 8 = 0 then (if R.val / 8 = 0 then q0 else q1) else 0) = q0 + q1 := by
  rw [Fin.sum_univ_eq_sum_range (fun n => if n % 8 = 0 then (if n / 8 = 0 then q0 else q1) else 0) 16]
  simp [Finset.sum_range_succ]

/-- The total of the 16 × 128 output array, in which only entries (0, 0) and (8, 0) are not zero, times 2⁻²⁵. -/
theorem tail_value (G1 : FVec Ideal S16x128 .f32) (q0 q1 : EReal)
    (h : ∀ (R : Fin 16) (l : Fin 128), G1 (ix2 R l)
      = if R.val % 8 = 0 ∧ l.val = 0 then (if R.val / 8 = 0 then q0 else q1) else 0) :
    mulf (Host.reduceAdd (F := Ideal) G1 (constant (F := Ideal) S_ .f32 0x00000000#32)
        Gen.reducesTo_S16x128_S_d0_1 Gen.h_S_) (constant (F := Ideal) S_ .f32 0x33000000#32)
      = fun _ => (q0 + q1) * ((1 / 33554432 : ℝ) : EReal) := by
  funext k
  show Ideal.hostReduceAdd Gen.reducesTo_S16x128_S_d0_1 G1 (Ideal.ofBits .f32 0x00000000#32) k
      * Ideal.ofBits .f32 0x33000000#32 = _
  rw [Ideal.hostReduceAdd_total Gen.reducesTo_S16x128_S_d0_1 (fun b => b.elim0), Ideal.ofBits_zero_f32, zero_add,
    ofBits_two_pow_neg25, sum_idx2]
  refine congrArg (fun z : EReal => z * ((1 / 33554432 : ℝ) : EReal)) ?_
  refine Eq.trans (Finset.sum_congr rfl fun R _ => ?_) (sum_rows q0 q1)
  refine Eq.trans (Finset.sum_congr rfl fun l _ => h R l) ?_
  exact sum_lane0 (R.val % 8 = 0) _

/-! ## The grid's points and the 128 images -/

/-- Eight runs of sixteen consecutive naturals are the naturals below 128. -/
theorem sum_blocks (f : ℕ → EReal) :
    (∑ t ∈ Finset.range 8, ∑ n ∈ Finset.range 16, f (16 * t + n)) = ∑ i : Fin 128, f i.val := by
  calc (∑ t ∈ Finset.range 8, ∑ n ∈ Finset.range 16, f (16 * t + n))
      = ∑ t : Fin 8, ∑ n : Fin 16, f (n.val + 16 * t.val) := by
        rw [Finset.sum_range]
        refine Finset.sum_congr rfl fun t _ => ?_
        rw [Finset.sum_range]
        refine Finset.sum_congr rfl fun n _ => ?_
        rw [Nat.add_comm]
    _ = ∑ i : Fin (8 * 16), f i.val := (Cert.Lib.BlockSum.sum_fin_mul 8 16 f).symm
    _ = ∑ i : Fin 128, f i.val := rfl

/-- The eight grid points' sixteen images each are the 128 images. -/
theorem total_eq (A : Cert.Opening.Arr) :
    (∑ t ∈ Finset.range 8, ∑ n ∈ Finset.range 16,
        Cert.Opening.imgLoss (Cert.Opening.image A ⟨(16 * t + n) % 128, Nat.mod_lt _ (by decide)⟩))
      = Cert.Opening.total A := by
  refine (sum_blocks fun m => Cert.Opening.imgLoss (Cert.Opening.image A ⟨m % 128, Nat.mod_lt _ (by decide)⟩)).trans ?_
  unfold Cert.Opening.total
  refine Finset.sum_congr rfl fun n _ => ?_
  exact congrArg (fun m : Fin 128 => Cert.Opening.imgLoss (Cert.Opening.image A m)) (Fin.ext (Nat.mod_eq_of_lt n.isLt))

/-- The grid's two halves, points 0 to 3 and points 4 to 7, together are its eight points. -/
theorem sum_cores (g : ℕ → EReal) :
    (∑ s ∈ Finset.Icc 0 3, g s) + (∑ s ∈ Finset.Icc 4 7, g s) = ∑ t ∈ Finset.range 8, g t := by
  have hd : Disjoint (Finset.Icc 0 3) (Finset.Icc 4 7 : Finset ℕ) :=
    Finset.disjoint_left.2 fun a ha hb => by
      rw [Finset.mem_Icc] at ha hb; omega
  have hu : (Finset.Icc 0 3 ∪ Finset.Icc 4 7 : Finset ℕ) = Finset.range 8 :=
    Finset.ext fun a => by
      rw [Finset.mem_union, Finset.mem_Icc, Finset.mem_Icc, Finset.mem_range]; omega
  rw [← Finset.sum_union hd, hu]

end Cert.KernelIdeal.KMath

end
-- ==== Proof.KBlock.lean ====
/-
  Which images a grid point reads.

  The input window stages the argument array seen as a stack of 128 images, in blocks of sixteen images; its
  index map sends the grid point (core, step) to block 4 · core + step, which is the point's own row-major number t.
  So image a of the block read at point t is image 16 · t + a of the stack, that is, entry
  ((16 · t + a) / 16, (16 · t + a) % 16) of the 8 × 16 argument array of images.
-/
import Idealize.ShloMosaic.Lib.StableHlo.Run
import proofs.«101267_j61349312856565_2_alg».proof.Proof.Gen.KernelIdeal.Frame
import proofs.«101267_j61349312856565_2_alg».proof.Proof.KLoop
import proofs.«101267_j61349312856565_2_alg».proof.Proof.KMath

set_option maxRecDepth 16384

noncomputable section

namespace Cert.KernelIdeal.KBlock

open Cert.KernelIdeal Cert.KernelIdeal.Gen Idealize.ShloMosaic Idealize.ShloMosaic.TcCoe Idealize.ShloMosaic.ValueIdx
open Idealize.SL.Sem

/-- The input window's block index at grid point t: t itself along the stack of images, zero along an image's rows
    and columns (decided over the eight points). -/
theorem idx_facts : ∀ t : Fin cfg0.N, win0_0.index t (0 : Fin 3) = t.val
    ∧ win0_0.index t (1 : Fin 3) = 0 ∧ win0_0.index t (2 : Fin 3) = 0 :=
  (by decide +kernel : ∀ t : Fin grid0.N, _)

/-- The array the input window stages, as the region finds it: the argument array read as a stack of 128 images. -/
theorem V_main_v0 (m : (ℓ : Loc nD τ sig) → Buf (Elt Ideal) ℓ) (c : Dev nD) :
    (V m c main_v0 : S128x512x512.Idx → EReal)
      = shapeCast S128x512x512 (m ((c : Thread nD τ).loc main_arg0)) shapeCasts_S8x16x512x512_S128x512x512 := by
  show StableHlo.after hostOps0 (fun b => m (c, b)) (Proc.devRef .tc main_v0) = _
  after_results
  rfl

/-- Entry (a, i, j) of the block read at point t is entry (16 · t + a, i, j) of the staged array: on each axis a
    block's coordinate is the block index times the block's extent plus the coordinate inside the block. -/
theorem iblk_apply (m : (ℓ : Loc nD τ sig) → Buf (Elt Ideal) ℓ) (c : Dev nD) (t : Fin cfg0.N)
    (a : Fin 16) (i j : Fin 512) (N : Fin 128) (hN : N.val = 16 * t.val + a.val) :
    Gen.iblk m c 0 t (ix3 a i j) = (V m c main_v0 : S128x512x512.Idx → EReal) (ix3 N i j) := by
  obtain ⟨e0, e1, e2⟩ := idx_facts t
  show V m c main_v0 (((cfg0.win 0).blk t).view.emb (ix3 a i j)) = V m c main_v0 (ix3 N i j)
  refine congrArg (V m c main_v0) (funext fun ax => Fin.ext ?_)
  match ax with
  | ⟨0, _⟩ =>
    show win0_0.index t (0 : Fin 3) * 16 + 1 * a.val = N.val
    omega
  | ⟨1, _⟩ =>
    show win0_0.index t (1 : Fin 3) * 512 + 1 * i.val = i.val
    omega
  | ⟨2, _⟩ =>
    show win0_0.index t (2 : Fin 3) * 512 + 1 * j.val = j.val
    omega

/-- The sixteen images grid point t reads are images 16 · t, …, 16 · t + 15 of the 128. -/
theorem imgOf_iblk (m : (ℓ : Loc nD τ sig) → Buf (Elt Ideal) ℓ) (c : Dev nD) (t : Fin cfg0.N) (n : ℕ) (hn : n < 16) :
    KLoop.imgOf (Gen.iblk m c 0 t) n
      = Cert.Opening.image (m ((c : Thread nD τ).loc main_arg0)) ⟨(16 * t.val + n) % 128, Nat.mod_lt _ (by decide)⟩ := by
  have ht : t.val < 8 := lt_of_lt_of_eq t.isLt N_0
  funext i j
  show Gen.iblk m c 0 t (ix3 (⟨n % 16, Nat.mod_lt _ (by decide)⟩ : Fin 16) i j) = _
  refine (iblk_apply m c t ⟨n % 16, Nat.mod_lt _ (by decide)⟩ i j ⟨(16 * t.val + n) % 128, Nat.mod_lt _ (by decide)⟩
    (by show (16 * t.val + n) % 128 = 16 * t.val + n % 16; omega)).trans ?_
  refine (congrFun (V_main_v0 m c) _).trans ?_
  exact KMath.reshape_image (m ((c : Thread nD τ).loc main_arg0)) _ i j

end Cert.KernelIdeal.KBlock

end
-- ==== Proof.KRun.lean ====
/-
  The idealized kernel's run, read as a value: its result is the specification's.

  After the region the host sums the 16 × 128 output array — whose only entries that are not zero are the two cores'
  losses — and multiplies by 2⁻²⁵. The two cores' eight blocks of sixteen images are the 128 images of the argument,
  so the sum is the total loss and the result is the mean.
-/
import proofs.«101267_j61349312856565_2_alg».proof.Proof.KFlush
import proofs.«101267_j61349312856565_2_alg».proof.Proof.KMath
import proofs.«101267_j61349312856565_2_alg».proof.Proof.KBlock
import Idealize.ShloMosaic.Lib.StableHlo.Run

set_option maxRecDepth 16384

noncomputable section

namespace Cert.KernelIdeal.KRun

open Idealize.ShloMosaic Idealize.ShloMosaic.TcCoe Idealize.ShloMosaic.ValueIdx Idealize.ShloMosaic.StableHlo
open Idealize.SL.Sem
open Cert.KernelIdeal Cert.KernelIdeal.Gen Cert.KernelIdeal.KLoop Cert.KernelIdeal.KPoint Cert.KernelIdeal.KGrid Cert.KernelIdeal.KFlush

variable (m : (ℓ : Loc nD τ sig) → Buf (Elt Ideal) ℓ) (ρ : Dev nD → PrngReg)

/-- The two cores' losses are the total loss of the 128 images. -/
theorem cores_total (c : Dev nD) :
    coreLoss m c 0 + coreLoss m c 1 = Cert.Opening.total (m ((c : Thread nD τ).loc main_arg0)) := by
  have hN : cfg0.N = 8 := N_0
  unfold coreLoss
  rw [show 4 * 0 = 0 from rfl, show 0 + 3 = 3 from rfl, show 4 * 1 = 4 from rfl, show 4 + 3 = 7 from rfl,
    KMath.sum_cores (ptLoss m c), ← KMath.total_eq]
  refine Finset.sum_congr rfl fun t ht => ?_
  have ht8 : t < cfg0.N := by rw [hN]; exact Finset.mem_range.mp ht
  rw [ptLoss_of_lt m c t ht8]
  unfold blockLoss
  refine Finset.sum_congr rfl fun n hn => ?_
  rw [KBlock.imgOf_iblk m c ⟨t, ht8⟩ n (Finset.mem_range.mp hn)]

/-- The output array read the way the host tail reads it. -/
theorem outArr_apply (c : Dev nD) (R : Fin 16) (l : Fin 128) :
    outArr m c (ix2 R l) = if R.val % 8 = 0 ∧ l.val = 0 then (if R.val / 8 = 0 then coreLoss m c 0 else coreLoss m c 1) else 0 := by
  unfold outArr
  show (if R.val % 8 = 0 ∧ l.val = 0 then coreLoss m c (R.val / 8) else 0) = _
  have hR : R.val < 16 := R.isLt
  by_cases h : R.val % 8 = 0 ∧ l.val = 0
  · rw [if_pos h, if_pos h]
    by_cases h8 : R.val / 8 = 0
    · rw [if_pos h8, h8]
    · rw [if_neg h8, show R.val / 8 = 1 from by omega]
  · rw [if_neg h, if_neg h]

/-- THE RESULT the lines after the region leave. -/
theorem tail_eq (c : Dev nD) :
    Pipeline.afterTail₀ cfgs (dats m) 0 (V0 m) [hostOps1] c main_v3
      = fun _ => Cert.Opening.result (m ((c : Thread nD τ).loc main_arg0)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v1)
      = outArr m c :=
    (Pipeline.withArrays_arr spec0 launch0.win.arr_inj c _ _ 1).trans (final m c)
  rw [hA, KMath.tail_value (outArr m c) (coreLoss m c 0) (coreLoss m c 1) (outArr_apply m c)]
  unfold Cert.Opening.result
  rw [cores_total]
  rfl

/-- THE RUN, READ: the idealized kernel ends with the specification's result of its argument, the argument unchanged. -/
theorem run : θ_run defs (onTc (τ := τ) (main (F := Ideal))) ⟨m, fun _ => 0, ρ⟩ (fun r => ∀ c : Dev nD,
      r.2.mem ((c.tc : Thread nD τ).loc main_v3) = (fun _ => Cert.Opening.result (m ((c.tc : Thread nD τ).loc main_arg0)))
      ∧ r.2.mem ((c.tc : Thread nD τ).loc main_arg0) = m ((c.tc : Thread nD τ).loc main_arg0)) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

end Cert.KernelIdeal.KRun

end
-- ==== Proof.RefRun.lean ====
/-
  The reference program's run, read back as one function of the argument array.

  The program is a straight line of thirty-two array operations: a copy of the first row put on top of the array
  and then a copy of the first column put on its left (each a slice, a reversal of an axis of length one and a
  concatenation), the minimum over 2 × 2 windows from +∞, a copy of the last row put at the bottom and of the last
  column on the right, the maximum over 2 × 2 windows from −∞, the difference with the argument, its square, the sum
  over all four axes from zero and the quotient by 2²⁵. Each of the five stretches is named as a function of the
  array it starts from, and the run says: every execution ends with the result buffer at the composition of the
  five applied to the argument, the argument unchanged.
-/
import proofs.«101267_j61349312856565_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The contents of a float array of shape `S`. -/
abbrev Arr (F : FTy → Type) (S : Shape) : Type := (⟨S, .f32⟩ : BufTy).Contents (Elt F)

/-- The first row repeated on top: 512 rows become 513. -/
def rowLo (x : Arr F S8x16x512x512) : Arr F S8x16x513x512 :=
  concatenate S8x16x513x512 2
    [⟨S8x16x1x512, Host.reverse [2] (extractStridedSlice S8x16x1x512 ![0, 0, 0, 0] x slices_S8x16x512x512_S8x16x1x512_0_0_0_0)⟩,
     ⟨S8x16x512x512, x⟩] concatenates_S8x16x1x512_S8x16x512x512_S8x16x513x512_d2

/-- The first column repeated on the left: 512 columns become 513. -/
def colLo (y : Arr F S8x16x513x512) : Arr F S8x16x513x513 :=
  concatenate S8x16x513x513 3
    [⟨S8x16x513x1, Host.reverse [3] (extractStridedSlice S8x16x513x1 ![0, 0, 0, 0] y slices_S8x16x513x512_S8x16x513x1_0_0_0_0)⟩,
     ⟨S8x16x513x512, y⟩] concatenates_S8x16x513x1_S8x16x513x512_S8x16x513x513_d3

/-- The first pad: one row on top, one column on the left. -/
def padLo (x : Arr F S8x16x512x512) : Arr F S8x16x513x513 := colLo (rowLo x)

/-- The minimum over 2 × 2 windows, from +∞. -/
def erodeW (z : Arr F S8x16x513x513) : Arr F S8x16x512x512 :=
  Host.reduceWindow FloatOps.minimumf ![1, 1, 2, 2] ![1, 1, 1, 1] ![0, 0, 0, 0] ![0, 0, 0, 0] z
    (constant S_ .f32 0x7F800000#32 : Arr F S_)
    reduceWindows_S8x16x513x513_S8x16x512x512_w1s1p0_0_w1s1p0_0_w2s1p0_0_w2s1p0_0 h_S_

/-- The last row repeated at the bottom. -/
def rowHi (e : Arr F S8x16x512x512) : Arr F S8x16x513x512 :=
  concatenate S8x16x513x512 2
    [⟨S8x16x512x512, e⟩,
     ⟨S8x16x1x512, Host.reverse [2] (extractStridedSlice S8x16x1x512 ![0, 0, 511, 0] e slices_S8x16x512x512_S8x16x1x512_0_0_511_0)⟩]
    concatenates_S8x16x512x512_S8x16x1x512_S8x16x513x512_d2

/-- The last column repeated on the right. -/
def colHi (y : Arr F S8x16x513x512) : Arr F S8x16x513x513 :=
  concatenate S8x16x513x513 3
    [⟨S8x16x513x512, y⟩,
     ⟨S8x16x513x1, Host.reverse [3] (extractStridedSlice S8x16x513x1 ![0, 0, 0, 511] y slices_S8x16x513x512_S8x16x513x1_0_0_0_511)⟩]
    concatenates_S8x16x513x512_S8x16x513x1_S8x16x513x513_d3

/-- The second pad: one row at the bottom, one column on the right. -/
def padHi (e : Arr F S8x16x512x512) : Arr F S8x16x513x513 := colHi (rowHi e)

/-- The maximum over 2 × 2 windows, from −∞. -/
def dilateW (z : Arr F S8x16x513x513) : Arr F S8x16x512x512 :=
  Host.reduceWindow FloatOps.maximumf ![1, 1, 2, 2] ![1, 1, 1, 1] ![0, 0, 0, 0] ![0, 0, 0, 0] z
    (constant S_ .f32 0xFF800000#32 : Arr F S_)
    reduceWindows_S8x16x513x513_S8x16x512x512_w1s1p0_0_w1s1p0_0_w2s1p0_0_w2s1p0_0 h_S_

/-- The tail: the sum of the squared differences of two arrays, over 2²⁵. -/
def meanSq (x d : Arr F S8x16x512x512) : Arr F S_ :=
  Host.divf
    (Host.reduceAdd (mulf (subf x d) (subf x d)) (constant S_ .f32 0x00000000#32 : Arr F S_)
      reducesTo_S8x16x512x512_S_d0_1_2_3 h_S_)
    (constant S_ .f32 0x4C000000#32 : Arr F S_)

/-- The whole line as one function of the argument. -/
def out (x : Arr F S8x16x512x512) : Arr F S_ := meanSq x (dilateW (padHi (erodeW (padLo x))))

/-- @main's thirty-two operations, in order, the called functions' operations at their calls. -/
abbrev ops : List (HloOp τ sig (Elt F)) :=
  [ nullary main_c (constantI S_ 32 0#32),
    TRef.unary (.of main_arg0 : TRef sig ⟨S8x16x512x512, .f32⟩) main_call0.v0 (extractStridedSlice S8x16x1x512 ![0, 0, 0, 0] · slices_S8x16x512x512_S8x16x1x512_0_0_0_0),
    TRef.unary (.of main_arg0 : TRef sig ⟨S8x16x512x512, .f32⟩) main_call0.v1 (extractStridedSlice S8x16x1x512 ![0, 0, 0, 0] · slices_S8x16x512x512_S8x16x1x512_0_0_0_0),
    TRef.unary main_call0.v1 main_call0.call0.v0 (Host.reverse [2]),
    TRef.binary main_call0.call0.v0 (.of main_arg0) main_call0.v3 (fun a b => concatenate S8x16x513x512 2 [⟨S8x16x1x512, a⟩, ⟨S8x16x512x512, b⟩] concatenates_S8x16x1x512_S8x16x512x512_S8x16x513x512_d2),
    TRef.unary main_call0.v3 main_call0.v4 (extractStridedSlice S8x16x1x512 ![0, 0, 512, 0] · slices_S8x16x513x512_S8x16x1x512_0_0_512_0),
    TRef.unary main_call0.v3 main_call0.v5 (extractStridedSlice S8x16x513x1 ![0, 0, 0, 0] · slices_S8x16x513x512_S8x16x513x1_0_0_0_0),
    TRef.unary main_call0.v3 main_call0.v6 (extractStridedSlice S8x16x513x1 ![0, 0, 0, 0] · slices_S8x16x513x512_S8x16x513x1_0_0_0_0),
    TRef.unary main_call0.v6 main_call0.call1.v0 (Host.reverse [3]),
    TRef.binary main_call0.call1.v0 main_call0.v3 main_call0.v8 (fun a b => concatenate S8x16x513x513 3 [⟨S8x16x513x1, a⟩, ⟨S8x16x513x512, b⟩] concatenates_S8x16x513x1_S8x16x513x512_S8x16x513x513_d3),
    TRef.unary main_call0.v8 main_call0.v9 (extractStridedSlice S8x16x513x1 ![0, 0, 0, 512] · slices_S8x16x513x513_S8x16x513x1_0_0_0_512),
    nullary main_cst (constant S_ .f32 0x7F800000#32),
    binary main_v0 main_cst main_v1 ((fun x v => Host.reduceWindow FloatOps.minimumf ![1, 1, 2, 2] ![1, 1, 1, 1] ![0, 0, 0, 0] ![0, 0, 0, 0] x v reduceWindows_S8x16x513x513_S8x16x512x512_w1s1p0_0_w1s1p0_0_w2s1p0_0_w2s1p0_0 h_S_) : (⟨S8x16x513x513, .f32⟩ : BufTy).Contents (Elt F) → (⟨S_, .f32⟩ : BufTy).Contents (Elt F) → (⟨S8x16x512x512, .f32⟩ : BufTy).Contents (Elt F)),
    nullary main_c_0 (constantI S_ 32 0#32),
    TRef.unary (.of main_v1 : TRef sig ⟨S8x16x512x512, .f32⟩) main_call1.v0 (extractStridedSlice S8x16x1x512 ![0, 0, 0, 0] · slices_S8x16x512x512_S8x16x1x512_0_0_0_0),
    TRef.unary (.of main_v1 : TRef sig ⟨S8x16x512x512, .f32⟩) main_call1.v1 (extractStridedSlice S8x16x1x512 ![0, 0, 511, 0] · slices_S8x16x512x512_S8x16x1x512_0_0_511_0),
    TRef.unary (.of main_v1 : TRef sig ⟨S8x16x512x512, .f32⟩) main_call1.v2 (extractStridedSlice S8x16x1x512 ![0, 0, 511, 0] · slices_S8x16x512x512_S8x16x1x512_0_0_511_0),
    TRef.unary main_call1.v2 main_call1.call0.v0 (Host.reverse [2]),
    TRef.binary (.of main_v1) main_call1.call0.v0 main_call1.v4 (fun a b => concatenate S8x16x513x512 2 [⟨S8x16x512x512, a⟩, ⟨S8x16x1x512, b⟩] concatenates_S8x16x512x512_S8x16x1x512_S8x16x513x512_d2),
    TRef.unary main_call1.v4 main_call1.v5 (extractStridedSlice S8x16x513x1 ![0, 0, 0, 0] · slices_S8x16x513x512_S8x16x513x1_0_0_0_0),
    TRef.unary main_call1.v4 main_call1.v6 (extractStridedSlice S8x16x513x1 ![0, 0, 0, 511] · slices_S8x16x513x512_S8x16x513x1_0_0_0_511),
    TRef.unary main_call1.v4 main_call1.v7 (extractStridedSlice S8x16x513x1 ![0, 0, 0, 511] · slices_S8x16x513x512_S8x16x513x1_0_0_0_511),
    TRef.unary main_call1.v7 main_call1.call1.v0 (Host.reverse [3]),
    TRef.binary main_call1.v4 main_call1.call1.v0 main_call1.v9 (fun a b => concatenate S8x16x513x513 3 [⟨S8x16x513x512, a⟩, ⟨S8x16x513x1, b⟩] concatenates_S8x16x513x512_S8x16x513x1_S8x16x513x513_d3),
    nullary main_cst_1 (constant S_ .f32 0xFF800000#32),
    binary main_v2 main_cst_1 main_v3 ((fun x v => Host.reduceWindow FloatOps.maximumf ![1, 1, 2, 2] ![1, 1, 1, 1] ![0, 0, 0, 0] ![0, 0, 0, 0] x v reduceWindows_S8x16x513x513_S8x16x512x512_w1s1p0_0_w1s1p0_0_w2s1p0_0_w2s1p0_0 h_S_) : (⟨S8x16x513x513, .f32⟩ : BufTy).Contents (Elt F) → (⟨S_, .f32⟩ : BufTy).Contents (Elt F) → (⟨S8x16x512x512, .f32⟩ : BufTy).Contents (Elt F)),
    binary main_arg0 main_v3 main_v4 (subf : (⟨S8x16x512x512, .f32⟩ : BufTy).Contents (Elt F) → (⟨S8x16x512x512, .f32⟩ : BufTy).Contents (Elt F) → (⟨S8x16x512x512, .f32⟩ : BufTy).Contents (Elt F)),
    binary main_v4 main_v4 main_v5 (mulf : (⟨S8x16x512x512, .f32⟩ : BufTy).Contents (Elt F) → (⟨S8x16x512x512, .f32⟩ : BufTy).Contents (Elt F) → (⟨S8x16x512x512, .f32⟩ : BufTy).Contents (Elt F)),
    nullary main_cst_2 (constant S_ .f32 0x00000000#32),
    binary main_v5 main_cst_2 main_v6 ((fun x v => Host.reduceAdd x v reducesTo_S8x16x512x512_S_d0_1_2_3 h_S_) : (⟨S8x16x512x512, .f32⟩ : BufTy).Contents (Elt F) → (⟨S_, .f32⟩ : BufTy).Contents (Elt F) → (⟨S_, .f32⟩ : BufTy).Contents (Elt F)),
    nullary main_cst_3 (constant S_ .f32 0x4C000000#32),
    binary main_v6 main_cst_3 main_v7 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the called functions unfolded at their calls, sequencing reassociated. -/
theorem main_eq (c : Dev nD) : main (F := F) c = seq ops := by
  simp only [main, fn_pad.body, fn_pad_1.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., unary_bufs_sub .., binary_bufs_sub .., unary_bufs_sub .., nullary_bufs_sub ..,
    binary_bufs_sub .., nullary_bufs_sub .., unary_bufs_sub .., unary_bufs_sub .., unary_bufs_sub .., unary_bufs_sub ..,
    binary_bufs_sub .., unary_bufs_sub .., unary_bufs_sub .., unary_bufs_sub .., unary_bufs_sub .., binary_bufs_sub ..,
    nullary_bufs_sub .., binary_bufs_sub .., binary_bufs_sub .., binary_bufs_sub .., nullary_bufs_sub .., binary_bufs_sub ..,
    nullary_bufs_sub .., binary_bufs_sub ..⟩

attribute [local irreducible] Host.reduceWindow Host.reduceAdd concatenate extractStridedSlice Host.reverse in
set_option maxRecDepth 8192 in
/-- The fold of the thirty-two operations at the result buffer is the composition of the five stretches applied to
    the argument: each operation's result decides whether the buffer read is the one it writes, and the transports
    to and from the buffers' own types are the identity at these literal buffers. The window reductions, the sum,
    the concatenations, slices and reversals stay folded meanwhile: the equation never looks inside them. -/
theorem out_eq (V : Valuation τ sig (Elt F)) :
    after ops V (main_v7 : DevRef τ sig) = out (V (main_arg0 : DevRef τ sig)) := by
  simp only [after_cons, after_nil]
  rfl

/-- The argument's buffer is written by no operation. -/
theorem arg0_eq (V : Valuation τ sig (Elt F)) :
    after ops V (main_arg0 : DevRef τ sig) = V (main_arg0 : DevRef τ sig) := by
  simp only [after_cons, after_nil]
  rfl

/-- On every device, for any float values, from any memory with zero counters: every weakly fair execution of
    @main terminates with the result at `out` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = out (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefPad.lean ====
/-
  The two pads read at an index.

  The first pad puts a copy of the first row on top of the array and then a copy of the first column on its left:
  its entry (i, j), 0 ≤ i, j ≤ 512, is the array's entry (i − 1, j − 1), a coordinate that would be −1 replaced by 0.
  The second puts a copy of the last row at the bottom and of the last column on the right: its entry (i, j) is the
  array's entry (min i 511, min j 511). The copied row or column passes a reversal of an axis of length one, which
  is the identity.
-/
import proofs.«101267_j61349312856565_2_alg».proof.Proof.RefRun
import Idealize.ShloMosaic.Lib.Pipeline.Value
import Idealize.ShloMosaic.Lib.ValueIdx

noncomputable section

namespace Cert.ReferenceIdeal.RefPad

open Cert.ReferenceIdeal Cert.ReferenceIdeal.RefRun Idealize.ShloMosaic Idealize.ShloMosaic.ValueIdx

variable {F : FTy → Type} [FloatOps F] [Facts]
open Facts₀ Facts

/-- Reversing an axis of length one changes nothing. -/
theorem reverse_unit {α : Type} (s : Shape) (ax : Fin s.rank) (h1 : s.size ax = 1) (y : s.Idx → α) :
    Host.reverse [ax] y = y := by
  funext j
  unfold Host.reverse
  congr 1
  funext a
  by_cases h : a ∈ [ax]
  · rw [if_pos h]
    have e : a = ax := by simpa using h
    subst e
    apply Fin.ext
    have := (j a).isLt
    rw [Fin.val_rev]
    omega
  · rw [if_neg h]

/-- The first row repeated on top, at (i, j): the array at (i − 1, j). -/
theorem rowLo_apply (x : Arr F S8x16x512x512) (b : Fin 8) (c : Fin 16) (i : Fin 513) (j : Fin 512) :
    rowLo x (ix4 b c i j) = x (ix4 b c (⟨i.val - 1, by omega⟩ : Fin 512) j) := by
  unfold rowLo
  rw [reverse_unit S8x16x1x512 2 rfl]
  by_cases hi : i.val = 0
  · refine (concatenate_pair_apply_left (s₁ := S8x16x1x512) (s₂ := S8x16x512x512) _ _ _ _ (ix4 b c i j) rfl (ix4 b c (⟨0, by omega⟩ : Fin 1) j) ?_).trans ?_
    · intro a
      match a with
      | ⟨0, _⟩ => rfl
      | ⟨1, _⟩ => rfl
      | ⟨2, _⟩ => exact hi.symm
      | ⟨3, _⟩ => rfl
    · refine extractStridedSlice_apply _ x _ _ (ix4 b c (⟨i.val - 1, by omega⟩ : Fin 512) j) ?_
      intro a
      match a with
      | ⟨0, _⟩ => show b.val = 0 + b.val; omega
      | ⟨1, _⟩ => show c.val = 0 + c.val; omega
      | ⟨2, _⟩ => show i.val - 1 = 0 + 0; omega
      | ⟨3, _⟩ => show j.val = 0 + j.val; omega
  · refine concatenate_pair_apply_right (s₁ := S8x16x1x512) (s₂ := S8x16x512x512) _ _ _ _ (ix4 b c i j) rfl rfl (ix4 b c (⟨i.val - 1, by omega⟩ : Fin 512) j) ?_ ?_
    · intro a ha
      match a with
      | ⟨0, _⟩ => rfl
      | ⟨1, _⟩ => rfl
      | ⟨2, _⟩ => exact absurd rfl ha
      | ⟨3, _⟩ => rfl
    · show i.val - 1 + 1 = i.val
      omega

/-- The first column repeated on the left, at (i, j): the array at (i, j − 1). -/
theorem colLo_apply (y : Arr F S8x16x513x512) (b : Fin 8) (c : Fin 16) (i : Fin 513) (j : Fin 513) :
    colLo y (ix4 b c i j) = y (ix4 b c i (⟨j.val - 1, by omega⟩ : Fin 512)) := by
  unfold colLo
  rw [reverse_unit S8x16x513x1 3 rfl]
  by_cases hj : j.val = 0
  · refine (concatenate_pair_apply_left (s₁ := S8x16x513x1) (s₂ := S8x16x513x512) _ _ _ _ (ix4 b c i j) rfl (ix4 b c i (⟨0, by omega⟩ : Fin 1)) ?_).trans ?_
    · intro a
      match a with
      | ⟨0, _⟩ => rfl
      | ⟨1, _⟩ => rfl
      | ⟨2, _⟩ => rfl
      | ⟨3, _⟩ => exact hj.symm
    · refine extractStridedSlice_apply _ y _ _ (ix4 b c i (⟨j.val - 1, by omega⟩ : Fin 512)) ?_
      intro a
      match a with
      | ⟨0, _⟩ => show b.val = 0 + b.val; omega
      | ⟨1, _⟩ => show c.val = 0 + c.val; omega
      | ⟨2, _⟩ => show i.val = 0 + i.val; omega
      | ⟨3, _⟩ => show j.val - 1 = 0 + 0; omega
  · refine concatenate_pair_apply_right (s₁ := S8x16x513x1) (s₂ := S8x16x513x512) _ _ _ _ (ix4 b c i j) rfl rfl (ix4 b c i (⟨j.val - 1, by omega⟩ : Fin 512)) ?_ ?_
    · intro a ha
      match a with
      | ⟨0, _⟩ => rfl
      | ⟨1, _⟩ => rfl
      | ⟨2, _⟩ => rfl
      | ⟨3, _⟩ => exact absurd rfl ha
    · show j.val - 1 + 1 = j.val
      omega

/-- The first pad at (i, j): the array at (i − 1, j − 1). -/
theorem padLo_apply (x : Arr F S8x16x512x512) (b : Fin 8) (c : Fin 16) (i j : Fin 513) :
    padLo x (ix4 b c i j) = x (ix4 b c (⟨i.val - 1, by omega⟩ : Fin 512) (⟨j.val - 1, by omega⟩ : Fin 512)) := by
  unfold padLo
  exact (colLo_apply (rowLo x) b c i j).trans (rowLo_apply x b c i _)

/-- The last row repeated at the bottom, at (i, j): the array at (min i 511, j). -/
theorem rowHi_apply (e : Arr F S8x16x512x512) (b : Fin 8) (c : Fin 16) (i : Fin 513) (j : Fin 512) :
    rowHi e (ix4 b c i j) = e (ix4 b c (⟨min i.val 511, by omega⟩ : Fin 512) j) := by
  unfold rowHi
  rw [reverse_unit S8x16x1x512 2 rfl]
  by_cases hi : i.val < 512
  · refine concatenate_pair_apply_left (s₁ := S8x16x512x512) (s₂ := S8x16x1x512) _ _ _ _ (ix4 b c i j) rfl (ix4 b c (⟨min i.val 511, by omega⟩ : Fin 512) j) ?_
    intro a
    match a with
    | ⟨0, _⟩ => rfl
    | ⟨1, _⟩ => rfl
    | ⟨2, _⟩ => show min i.val 511 = i.val; omega
    | ⟨3, _⟩ => rfl
  · refine (concatenate_pair_apply_right (s₁ := S8x16x512x512) (s₂ := S8x16x1x512) _ _ _ _ (ix4 b c i j) rfl rfl (ix4 b c (⟨0, by omega⟩ : Fin 1) j) ?_ ?_).trans ?_
    · intro a ha
      match a with
      | ⟨0, _⟩ => rfl
      | ⟨1, _⟩ => rfl
      | ⟨2, _⟩ => exact absurd rfl ha
      | ⟨3, _⟩ => rfl
    · show 0 + 512 = i.val
      have := i.isLt
      omega
    · refine extractStridedSlice_apply _ e _ _ (ix4 b c (⟨min i.val 511, by omega⟩ : Fin 512) j) ?_
      intro a
      match a with
      | ⟨0, _⟩ => show b.val = 0 + b.val; omega
      | ⟨1, _⟩ => show c.val = 0 + c.val; omega
      | ⟨2, _⟩ => show min i.val 511 = 511 + 0; omega
      | ⟨3, _⟩ => show j.val = 0 + j.val; omega

/-- The last column repeated on the right, at (i, j): the array at (i, min j 511). -/
theorem colHi_apply (y : Arr F S8x16x513x512) (b : Fin 8) (c : Fin 16) (i : Fin 513) (j : Fin 513) :
    colHi y (ix4 b c i j) = y (ix4 b c i (⟨min j.val 511, by omega⟩ : Fin 512)) := by
  unfold colHi
  rw [reverse_unit S8x16x513x1 3 rfl]
  by_cases hj : j.val < 512
  · refine concatenate_pair_apply_left (s₁ := S8x16x513x512) (s₂ := S8x16x513x1) _ _ _ _ (ix4 b c i j) rfl (ix4 b c i (⟨min j.val 511, by omega⟩ : Fin 512)) ?_
    intro a
    match a with
    | ⟨0, _⟩ => rfl
    | ⟨1, _⟩ => rfl
    | ⟨2, _⟩ => rfl
    | ⟨3, _⟩ => show min j.val 511 = j.val; omega
  · refine (concatenate_pair_apply_right (s₁ := S8x16x513x512) (s₂ := S8x16x513x1) _ _ _ _ (ix4 b c i j) rfl rfl (ix4 b c i (⟨0, by omega⟩ : Fin 1)) ?_ ?_).trans ?_
    · intro a ha
      match a with
      | ⟨0, _⟩ => rfl
      | ⟨1, _⟩ => rfl
      | ⟨2, _⟩ => rfl
      | ⟨3, _⟩ => exact absurd rfl ha
    · show 0 + 512 = j.val
      have := j.isLt
      omega
    · refine extractStridedSlice_apply _ y _ _ (ix4 b c i (⟨min j.val 511, by omega⟩ : Fin 512)) ?_
      intro a
      match a with
      | ⟨0, _⟩ => show b.val = 0 + b.val; omega
      | ⟨1, _⟩ => show c.val = 0 + c.val; omega
      | ⟨2, _⟩ => show i.val = 0 + i.val; omega
      | ⟨3, _⟩ => show min j.val 511 = 511 + 0; omega

/-- The second pad at (i, j): the array at (min i 511, min j 511). -/
theorem padHi_apply (e : Arr F S8x16x512x512) (b : Fin 8) (c : Fin 16) (i j : Fin 513) :
    padHi e (ix4 b c i j) = e (ix4 b c (⟨min i.val 511, by omega⟩ : Fin 512) (⟨min j.val 511, by omega⟩ : Fin 512)) := by
  unfold padHi
  exact (colHi_apply (rowHi e) b c i j).trans (rowHi_apply e b c i _)

end Cert.ReferenceIdeal.RefPad

end
-- ==== Proof.RefWindow.lean ====
/-
  A 2 × 2 window reduction read at an index.

  The reduction of an array over windows of extents 1 × 1 × 2 × 2, stride one, no padding, is by definition a left
  fold of the body from the initial value over the window's four positions in row-major order. At the index
  (b, c, i, j) the four positions are (i, j), (i, j + 1), (i + 1, j), (i + 1, j + 1), all inside the operand, whose
  last two extents are one more than the result's; so the fold is the body applied four times, to the operand at
  those four places in that order.
-/
import Idealize.ShloMosaic.PureOps
import Idealize.ShloMosaic.Lib.ValueIdx
import Idealize.ShloMosaic.Lib.StableHlo.Run

namespace Cert.ReferenceIdeal.RefWindow

open Idealize.ShloMosaic Idealize.ShloMosaic.ValueIdx

/-- The operand's shape, the result's, the initial value's, and the window as a shape. -/
abbrev SP : Shape := ⟨4, ![8, 16, 513, 513]⟩
abbrev SQ : Shape := ⟨4, ![8, 16, 512, 512]⟩
abbrev S0 : Shape := ⟨0, ![]⟩
abbrev W : Shape := ⟨4, ![1, 1, 2, 2]⟩

/-- A left fold over the four positions, written out. -/
theorem foldl_finRange_four {β : Type} (n : ℕ) (hn : n = 4) (g : β → Fin n → β) (v : β) :
    (List.finRange n).foldl g v = g (g (g (g v ⟨0, by omega⟩) ⟨1, by omega⟩) ⟨2, by omega⟩) ⟨3, by omega⟩ := by
  subst hn; rfl

/-- The window has four positions. -/
theorem W_numel : W.numel = 4 := by decide

variable {α : Type}

/-- A guarded read whose guard holds is the read. -/
theorem dite_pick {β γ : Type} {P : Prop} [Decidable P] (z : β → γ) (g : P → β) (v0 : γ) (k : β) (hP : P) (hk : g hP = k) :
    (if hp : P then z (g hp) else v0) = z k := by rw [dif_pos hP, hk]

/-- A coordinate x · 1 + d with no low padding is inside an extent that x + d is inside. -/
theorem in_bound (x d n : ℕ) (h : x + d < n) : 0 ≤ x * 1 + d ∧ x * 1 + d - 0 < n := by omega

/-- … and is x + d. -/
theorem val_eq (x d : ℕ) : x * 1 + d - 0 = x + d := by omega

/-- The 2 × 2 window reduction at (b, c, i, j): the body from the initial value through the operand at (i, j),
    (i, j + 1), (i + 1, j), (i + 1, j + 1). -/
theorem reduceWindow_apply (f : α → α → α) (z : SP.Idx → α) (v : S0.Idx → α)
    (h : SP.ReduceWindows (![1, 1, 2, 2] : Fin 4 → Nat) ![1, 1, 1, 1] ![0, 0, 0, 0] ![0, 0, 0, 0] SQ) (hu : 0 < S0.numel)
    (b : Fin 8) (c : Fin 16) (i j : Fin 512) :
    Host.reduceWindow f ![1, 1, 2, 2] ![1, 1, 1, 1] ![0, 0, 0, 0] ![0, 0, 0, 0] z v h hu (ix4 b c i j)
      = f (f (f (f (v (Shape.Idx.first hu)) (z (ix4 b c i.castSucc j.castSucc))) (z (ix4 b c i.castSucc j.succ)))
            (z (ix4 b c i.succ j.castSucc))) (z (ix4 b c i.succ j.succ)) := by
  unfold Host.reduceWindow
  simp only []
  rw [foldl_finRange_four _ W_numel]
  have hb := b.isLt; have hc := c.isLt; have hi := i.isLt; have hj := j.isLt
  refine congrArg₂ f (congrArg₂ f (congrArg₂ f (congrArg₂ f rfl ?_) ?_) ?_) ?_
  · refine dite_pick _ _ _ _ (fun a => ?_) (funext fun a => Fin.ext ?_)
    · match a with
      | ⟨0, _⟩ => exact in_bound b.val 0 8 (by omega)
      | ⟨1, _⟩ => exact in_bound c.val 0 16 (by omega)
      | ⟨2, _⟩ => exact in_bound i.val 0 513 (by omega)
      | ⟨3, _⟩ => exact in_bound j.val 0 513 (by omega)
    · match a with
      | ⟨0, _⟩ => exact val_eq b.val 0
      | ⟨1, _⟩ => exact val_eq c.val 0
      | ⟨2, _⟩ => exact val_eq i.val 0
      | ⟨3, _⟩ => exact val_eq j.val 0
  · refine dite_pick _ _ _ _ (fun a => ?_) (funext fun a => Fin.ext ?_)
    · match a with
      | ⟨0, _⟩ => exact in_bound b.val 0 8 (by omega)
      | ⟨1, _⟩ => exact in_bound c.val 0 16 (by omega)
      | ⟨2, _⟩ => exact in_bound i.val 0 513 (by omega)
      | ⟨3, _⟩ => exact in_bound j.val 1 513 (by omega)
    · match a with
      | ⟨0, _⟩ => exact val_eq b.val 0
      | ⟨1, _⟩ => exact val_eq c.val 0
      | ⟨2, _⟩ => exact val_eq i.val 0
      | ⟨3, _⟩ => exact val_eq j.val 1
  · refine dite_pick _ _ _ _ (fun a => ?_) (funext fun a => Fin.ext ?_)
    · match a with
      | ⟨0, _⟩ => exact in_bound b.val 0 8 (by omega)
      | ⟨1, _⟩ => exact in_bound c.val 0 16 (by omega)
      | ⟨2, _⟩ => exact in_bound i.val 1 513 (by omega)
      | ⟨3, _⟩ => exact in_bound j.val 0 513 (by omega)
    · match a with
      | ⟨0, _⟩ => exact val_eq b.val 0
      | ⟨1, _⟩ => exact val_eq c.val 0
      | ⟨2, _⟩ => exact val_eq i.val 1
      | ⟨3, _⟩ => exact val_eq j.val 0
  · refine dite_pick _ _ _ _ (fun a => ?_) (funext fun a => Fin.ext ?_)
    · match a with
      | ⟨0, _⟩ => exact in_bound b.val 0 8 (by omega)
      | ⟨1, _⟩ => exact in_bound c.val 0 16 (by omega)
      | ⟨2, _⟩ => exact in_bound i.val 1 513 (by omega)
      | ⟨3, _⟩ => exact in_bound j.val 1 513 (by omega)
    · match a with
      | ⟨0, _⟩ => exact val_eq b.val 0
      | ⟨1, _⟩ => exact val_eq c.val 0
      | ⟨2, _⟩ => exact val_eq i.val 1
      | ⟨3, _⟩ => exact val_eq j.val 1

end Cert.ReferenceIdeal.RefWindow
-- ==== Proof.RefSum.lean ====
/-
  Two regroupings of the sum over the argument array's index set.

  The index set of an array of rank four is the product of its four coordinate ranges, so a sum over it is the
  fourfold sum over the coordinates. And the sum over the two leading coordinates (b, c), b < 8, c < 16, of the
  loss of the image at (b, c) is the sum over the 128 images in row-major order, image n = 16 · b + c: the
  specification's total.
-/
import Idealize.ShloMosaic.Lib.ValueIdx
import proofs.«101267_j61349312856565_2_alg».proof.Proof.Spec
import proofs.«101267_j61349312856565_2_alg».proof.Proof.LibBlockSum

noncomputable section

open scoped BigOperators

namespace Cert.ReferenceIdeal.RefSum

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The image at the leading coordinates (b, c). -/
def img (A : Cert.Opening.Arr) (b : Fin 8) (c : Fin 16) : Cert.Opening.Img := fun i j => A (ix4 b c i j)

/-- Image 16 · b + c of the 128 is the image at (b, c). -/
theorem image_place (A : Cert.Opening.Arr) (b : Fin 8) (c : Fin 16) :
    Cert.Opening.image A (finProdFinEquiv (b, c) : Fin (8 * 16)) = img A b c := by
  have hv := Cert.Lib.BlockSum.place_val 8 16 b c
  have hb := b.isLt
  have hc := c.isLt
  funext i j
  have e1 : (⟨(finProdFinEquiv (b, c) : Fin (8 * 16)).val / 16, by omega⟩ : Fin 8) = b := Fin.ext (by show _ / 16 = b.val; omega)
  have e2 : (⟨(finProdFinEquiv (b, c) : Fin (8 * 16)).val % 16, by omega⟩ : Fin 16) = c := Fin.ext (by show _ % 16 = c.val; omega)
  show A (ix4 (⟨(finProdFinEquiv (b, c) : Fin (8 * 16)).val / 16, _⟩ : Fin 8) (⟨(finProdFinEquiv (b, c) : Fin (8 * 16)).val % 16, _⟩ : Fin 16) i j)
    = A (ix4 b c i j)
  rw [e1, e2]

/-- The sum over (b, c) of the images' losses is the specification's total. -/
theorem sum_img_eq_total (A : Cert.Opening.Arr) :
    ∑ b : Fin 8, ∑ c : Fin 16, Cert.Opening.imgLoss (img A b c) = Cert.Opening.total A := by
  show _ = ∑ n : Fin 128, Cert.Opening.imgLoss (Cert.Opening.image A n)
  refine Eq.symm ((Cert.Lib.BlockSum.sum_fin_mul_fin 8 16 fun n : Fin (8 * 16) => Cert.Opening.imgLoss (Cert.Opening.image A n)).trans ?_)
  refine Finset.sum_congr rfl fun b _ => Finset.sum_congr rfl fun c _ => ?_
  rw [image_place]

end Cert.ReferenceIdeal.RefSum

end
-- ==== Proof.RefConsts.lean ====
/-
  The float constants the reference program spells, as the extended reals their bit patterns denote: +∞, −∞ and
  2²⁵ = 33554432 (sign 0, exponent field 152 = 127 + 25, fraction 0).
-/
import Idealize.ShloMosaic.PureOps.Ideal

noncomputable section

namespace Cert.ReferenceIdeal.RefConsts

open Idealize.ShloMosaic

/-- The pattern 0x7F800000 (exponent field all ones, fraction zero, sign clear) denotes +∞. -/
theorem ofBits_top : Ideal.ofBits .f32 0x7F800000#32 = ⊤ := by
  simp [Ideal.ofBits, Ideal.ieee]

/-- The pattern 0xFF800000 (the same with the sign set) denotes −∞. -/
theorem ofBits_bot : Ideal.ofBits .f32 0xFF800000#32 = ⊥ := by
  simp [Ideal.ofBits, Ideal.ieee]

/-- The pattern 0x4C000000 denotes 2²⁵ = 33554432. -/
theorem ofBits_two25 : Ideal.ofBits .f32 0x4C000000#32 = ((33554432 : ℝ) : EReal) := by
  simp [Ideal.ofBits, Ideal.ieee, -EReal.coe_mul]; norm_num

end Cert.ReferenceIdeal.RefConsts

end
-- ==== Proof.RefStage.lean ====
/-
  The erosion and the dilation of the reference program, read at an index, are the specification's.

  The 2 × 2 window minimum of the first pad at (i, j) folds, from +∞, the pad's entries (i, j), (i, j + 1),
  (i + 1, j), (i + 1, j + 1), that is the image's entries (i − 1, j − 1), (i − 1, j), (i, j − 1), (i, j) with the edge
  repeated: regrouped (the minimum is associative and commutative and +∞ is its neutral element) it is the
  specification's erosion. Likewise the window maximum of the second pad, from −∞, is the specification's dilation,
  and their composition the opening.
-/
import proofs.«101267_j61349312856565_2_alg».proof.Proof.RefPad
import proofs.«101267_j61349312856565_2_alg».proof.Proof.RefWindow
import proofs.«101267_j61349312856565_2_alg».proof.Proof.RefSum
import proofs.«101267_j61349312856565_2_alg».proof.Proof.RefConsts
import Idealize.ShloMosaic.PureOps.Ideal

noncomputable section

namespace Cert.ReferenceIdeal.RefStage

open Cert.ReferenceIdeal Cert.ReferenceIdeal.RefRun Cert.ReferenceIdeal.RefPad Cert.ReferenceIdeal.RefWindow
  Cert.ReferenceIdeal.RefSum Cert.ReferenceIdeal.RefConsts Cert.Opening Idealize.ShloMosaic Idealize.ShloMosaic.ValueIdx

variable [Facts]
open Facts₀ Facts

/-- Four minima from +∞, regrouped two by two. -/
theorem min4 (A B C D : EReal) : min (min (min (min ⊤ A) B) C) D = min (min D C) (min B A) := by
  rw [min_top_left]
  ac_rfl

/-- Four maxima from −∞, regrouped two by two. -/
theorem max4 (A B C D : EReal) : max (max (max (max ⊥ A) B) C) D = max (max A B) (max C D) := by
  rw [max_bot_left]
  ac_rfl

/-- The window minimum of the first pad is the erosion of the image at (b, c). -/
theorem erode_apply (x : Arr Ideal S8x16x512x512) (b : Fin 8) (c : Fin 16) (i j : Fin 512) :
    erodeW (padLo x) (ix4 b c i j) = ero (img x b c) i j := by
  unfold erodeW
  refine (reduceWindow_apply _ _ _ _ _ b c i j).trans ?_
  rw [padLo_apply x b c i.castSucc j.castSucc, padLo_apply x b c i.castSucc j.succ,
    padLo_apply x b c i.succ j.castSucc, padLo_apply x b c i.succ j.succ]
  have hp (k : Fin 512) : (⟨k.castSucc.val - 1, by have := k.isLt; show k.val - 1 < 512; omega⟩ : Fin 512) = prev k := rfl
  have hs (k : Fin 512) : (⟨k.succ.val - 1, by have := k.isLt; show k.val + 1 - 1 < 512; omega⟩ : Fin 512) = k :=
    Fin.ext (by show k.val + 1 - 1 = k.val; omega)
  rw [hp i, hp j, hs i, hs j]
  show min (min (min (min (Ideal.ofBits .f32 0x7F800000#32) _) _) _) _ = _
  rw [ofBits_top]
  exact min4 _ _ _ _

/-- The window maximum of the second pad is the dilation of the image at (b, c). -/
theorem dilate_apply (e : Arr Ideal S8x16x512x512) (b : Fin 8) (c : Fin 16) (i j : Fin 512) :
    dilateW (padHi e) (ix4 b c i j) = dil (img e b c) i j := by
  unfold dilateW
  refine (reduceWindow_apply _ _ _ _ _ b c i j).trans ?_
  rw [padHi_apply e b c i.castSucc j.castSucc, padHi_apply e b c i.castSucc j.succ,
    padHi_apply e b c i.succ j.castSucc, padHi_apply e b c i.succ j.succ]
  have hq (k : Fin 512) : (⟨min k.castSucc.val 511, by have := k.isLt; show min k.val 511 < 512; omega⟩ : Fin 512) = k :=
    Fin.ext (by have := k.isLt; show min k.val 511 = k.val; omega)
  have hn (k : Fin 512) : (⟨min k.succ.val 511, by have := k.isLt; show min (k.val + 1) 511 < 512; omega⟩ : Fin 512) = next k := rfl
  rw [hq i, hq j, hn i, hn j]
  show max (max (max (max (Ideal.ofBits .f32 0xFF800000#32) _) _) _) _ = _
  rw [ofBits_bot]
  exact max4 _ _ _ _

/-- The two composed are the opening of the image at (b, c). -/
theorem opening_apply (x : Arr Ideal S8x16x512x512) (b : Fin 8) (c : Fin 16) (i j : Fin 512) :
    dilateW (padHi (erodeW (padLo x))) (ix4 b c i j) = dil (ero (img x b c)) i j := by
  rw [dilate_apply]
  have e : img (erodeW (padLo x)) b c = ero (img x b c) := by
    funext i' j'
    exact erode_apply x b c i' j'
  rw [e]

end Cert.ReferenceIdeal.RefStage

end
-- ==== Proof.RefValue.lean ====
/-
  The reference program computes the specification's result.

  The tail of the line is the quotient by 2²⁵ of zero plus the sum, over the array's whole index set, of the squared
  differences between the argument and the opening. The quotient by the nonzero real 2²⁵ is the product with its
  reciprocal; the sum over the index set is the fourfold sum over the coordinates, its two inner sums one image's
  loss, its two outer ones the sum over the 128 images. No finiteness of the entries is used: both sides subtract and
  square the same two numbers, and sums are only regrouped.
-/
import proofs.«101267_j61349312856565_2_alg».proof.Proof.RefStage
import Idealize.ShloMosaic.PureOps.Ideal.Laws

noncomputable section

open scoped BigOperators

namespace Cert.ReferenceIdeal.RefValue

open Cert.ReferenceIdeal Cert.ReferenceIdeal.RefRun Cert.ReferenceIdeal.RefSum Cert.ReferenceIdeal.RefConsts
  Cert.ReferenceIdeal.RefStage Cert.Opening Idealize.ShloMosaic Idealize.ShloMosaic.ValueIdx Idealize.ShloMosaic.TcCoe
  Idealize.SL.Sem

variable [Facts]
open Facts₀ Facts

/-- The tail at its one index: zero plus the sum of the squared differences, over 2²⁵. -/
theorem meanSq_apply (x D : Arr Ideal S8x16x512x512) (k : S_.Idx) :
    meanSq x D k
      = Ideal.div (Ideal.ofBits .f32 0x00000000#32 + ∑ q : S8x16x512x512.Idx, (x q - D q) * (x q - D q))
          (Ideal.ofBits .f32 0x4C000000#32) := by
  unfold meanSq
  show Ideal.div (Ideal.hostReduceAdd _ _ _ k) _ = _
  rw [Ideal.hostReduceAdd_total _ (fun b => b.elim0)]
  rfl

/-- The whole line applied to the argument is the specification's result, at its one index. -/
theorem out_eq_result (x : Arr Ideal S8x16x512x512) : out x = fun _ => Cert.Opening.result x := by
  funext k
  have hD : ∀ (b : Fin 8) (c : Fin 16) (i j : Fin 512),
      dilateW (padHi (erodeW (padLo x))) (ix4 b c i j) = dil (ero (img x b c)) i j := opening_apply x
  unfold out
  generalize dilateW (padHi (erodeW (padLo x))) = D at hD ⊢
  rw [meanSq_apply, Ideal.ofBits_zero_f32, zero_add, ofBits_two25, Ideal.div_coe (by norm_num)]
  show _ * _ = Cert.Opening.total x * _
  congr 1
  rw [sum_idx4, ← sum_img_eq_total]
  refine Finset.sum_congr rfl fun b _ => Finset.sum_congr rfl fun c _ => ?_
  show _ = ∑ i : Fin 512, ∑ j : Fin 512, sqd (img x b c) i j
  refine Finset.sum_congr rfl fun i _ => Finset.sum_congr rfl fun j _ => ?_
  rw [hD b c i j]
  rfl

/-- On every device, from any memory with zero counters: every weakly fair execution of the reference program
    terminates with the result buffer at the specification's result of the argument, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v7)
            = (fun _ => Cert.Opening.result (m ((c.tc : Thread nD τ).loc main_arg0)))
        ∧ r.2.mem ((c.tc : Thread nD τ).loc main_arg0) = m ((c.tc : Thread nD τ).loc main_arg0)) :=
  (θ_run defs _ _).mono (fun _ h c => ⟨(h c).1.trans (out_eq_result _), (h c).2⟩) (RefRun.run m ρ)

end Cert.ReferenceIdeal.RefValue

end
-- ==== Proof.lean ====
/-
  The kernel computes, per 512 × 512 image, the grey opening by a 2 × 2 window (an erosion — the minimum over
  {i − 1, i} × {j − 1, j} — followed by a dilation — the maximum over {i, i + 1} × {j, j + 1} —, the edge sample
  repeated at the border), and the sum of the squared differences between the image and its opening; it adds up the
  128 images' sums — sixteen images per grid point in a loop, four points per core in a one-entry accumulator, the two
  cores' totals in the two blocks of a 16 × 128 array the host then sums — and multiplies by 2⁻²⁵. The reference pads
  the whole array (repeating the edge), takes the windowed minimum from +∞ and the windowed maximum from −∞, subtracts,
  squares, sums over all four axes and divides by 2²⁵.

  On the extended reals both are the specification's `Cert.Opening.result` of the argument array: a shift that
  repeats the edge is the pad, the minimum from +∞ (maximum from −∞) over the window is the window's minimum
  (maximum), a sum may be taken in any grouping, and a product with 2⁻²⁵ is a quotient by 2²⁵. No finiteness of the
  argument is used: only minima, maxima, sums and products are regrouped, and the two sides subtract and square the
  same two numbers. The idealization rewrote nothing, so that claim is trivial; the three frames are the generated
  frame of each kernel program and the reference's run with its result forgotten.
-/
import proofs.«101267_j61349312856565_2_alg».proof.Defs
import proofs.«101267_j61349312856565_2_alg».proof.Proof.Gen.Kernel
import proofs.«101267_j61349312856565_2_alg».proof.Proof.Gen.Kernel.Skeleton
import proofs.«101267_j61349312856565_2_alg».proof.Proof.Gen.Kernel.Loops
import proofs.«101267_j61349312856565_2_alg».proof.Proof.Gen.Kernel.Launch
import proofs.«101267_j61349312856565_2_alg».proof.Proof.Gen.Kernel.Points
import proofs.«101267_j61349312856565_2_alg».proof.Proof.Gen.Kernel.Frame
import proofs.«101267_j61349312856565_2_alg».proof.Proof.Gen.KernelIdeal
import proofs.«101267_j61349312856565_2_alg».proof.Proof.Gen.KernelIdeal.Skeleton
import proofs.«101267_j61349312856565_2_alg».proof.Proof.Gen.KernelIdeal.Loops
import proofs.«101267_j61349312856565_2_alg».proof.Proof.Gen.KernelIdeal.Launch
import proofs.«101267_j61349312856565_2_alg».proof.Proof.Gen.KernelIdeal.Points
import proofs.«101267_j61349312856565_2_alg».proof.Proof.Gen.KernelIdeal.Frame
import proofs.«101267_j61349312856565_2_alg».proof.Proof.Gen.ReferenceIdeal
import proofs.«101267_j61349312856565_2_alg».proof.Proof.Gen.Pre_finite_inputs
import proofs.«101267_j61349312856565_2_alg».proof.Proof.KRun
import proofs.«101267_j61349312856565_2_alg».proof.Proof.RefValue
import Idealize.ShloMosaic.Adequacy
import Idealize.ShloMosaic.Init

noncomputable section

namespace Cert.Proof

open Idealize.ShloMosaic Idealize.SL.Sem

/-- The word-level kernel runs and leaves its argument alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument alone: its run with the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From arguments that agree both programs end at the specification's result of the argument. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [hagree c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
